-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512 : Shape := ⟨3, ![16, 512, 512]⟩
abbrev S512x2048 : Shape := ⟨2, ![512, 2048]⟩
abbrev S1x2048 : Shape := ⟨2, ![1, 2048]⟩
abbrev S2048x512 : Shape := ⟨2, ![2048, 512]⟩
abbrev S1x512 : Shape := ⟨2, ![1, 512]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  main_v23

def fn {F : FTy → Type} [FloatOps F] (main_arg0 : FVec F S16x512x512 .f32) (main_arg1 : FVec F S512x2048 .f32) (main_arg2 : FVec F S1x2048 .f32) (main_arg3 : FVec F S2048x512 .f32) (main_arg4 : FVec F S1x512 .f32) : IVec S_ 1 :=
  let main_v0 : FVec F S16x512x512 .f32 := Host.absf main_arg0
  let main_cst : FVec F S_ .f32 := constant S_ .f32 0x7F800000#32
  let main_v1 : FVec F S16x512x512 .f32 := broadcastInDim S16x512x512 ![] bcast_S_S16x512x512 main_cst
  let main_v2 : IVec S16x512x512 1 := cmpf .olt main_v0 main_v1
  let main_c : IVec S_ 1 := constantI S_ 1 1#1
  let main_v3 : IVec S_ 1 := (fun x v => Host.reduce IntOp.andi x v reducesTo_S16x512x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_v13 main_v16
-- ==== Kernel.lean ====
abbrev S16x512x512 : Shape := ⟨3, ![16, 512, 512]⟩
abbrev S512x2048 : Shape := ⟨2, ![512, 2048]⟩
abbrev S1x2048 : Shape := ⟨2, ![1, 2048]⟩
abbrev S2048x512 : Shape := ⟨2, ![2048, 512]⟩
abbrev S1x512 : Shape := ⟨2, ![1, 512]⟩
abbrev S8192x512 : Shape := ⟨2, ![8192, 512]⟩
abbrev S1024x512 : Shape := ⟨2, ![1024, 512]⟩
abbrev S512x512 : Shape := ⟨2, ![512, 512]⟩

abbrev nBuf : Space → Nat
  | .hbm => 8
  | .vmem => 13
  | .smem => 0
  | _ => 0

abbrev bufTy : (tb : Table) → Fin (tcTables nBuf tb) → BufTy
  | .hbm, ⟨0, _⟩ => ⟨S16x512x512, .f32⟩
  | .hbm, ⟨1, _⟩ => ⟨S512x2048, .f32⟩
  | .hbm, ⟨2, _⟩ => ⟨S1x2048, .f32⟩
  | .hbm, ⟨3, _⟩ => ⟨S2048x512, .f32⟩
  | .hbm, ⟨4, _⟩ => ⟨S1x512, .f32⟩
  | .hbm, ⟨5, _⟩ => ⟨S8192x512, .f32⟩
  | .hbm, ⟨6, _⟩ => ⟨S8192x512, .f32⟩
  | .hbm, ⟨7, _⟩ => ⟨S16x512x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S16x512x512_S8192x512 : S16x512x512.ShapeCasts S8192x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  broadcasts_S1x512_S1024x512 : S1x512.Broadcasts S1024x512
  shapeCasts_S8192x512_S16x512x512 : S8192x512.ShapeCasts S16x512x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x2048.size a
  hwx0_1 : ∀ i : grid0.Coords, EltTy.bits .f32 = 32 ∨ (Rect.block (s := S512x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x512.size a
  hwx0_3 : ∀ i : grid0.Coords, EltTy.bits .f32 = 32 ∨ (Rect.block (s := S2048x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x512.size a
  hwx0_5 : ∀ i : grid0.Coords, EltTy.bits .f32 = 32 ∨ (Rect.block (s := S8192x512) S1024x512.size (cc0_transform_5 i) (hinb0_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond4 i == 1#1) | ⟨_ + 6, h⟩ => absurd h (Nat.not_lt.2 (Nat.le_add_left _ _))

class Facts : Prop extends Facts₀ where

variable [Facts]
-- ==== ReferenceIdeal.lean ====
abbrev S16x512x512 : Shape := ⟨3, ![16, 512, 512]⟩
abbrev S512x2048 : Shape := ⟨2, ![512, 2048]⟩
abbrev S1x2048 : Shape := ⟨2, ![1, 2048]⟩
abbrev S2048x512 : Shape := ⟨2, ![2048, 512]⟩
abbrev S1x512 : Shape := ⟨2, ![1, 512]⟩
abbrev S8192x512 : Shape := ⟨2, ![8192, 512]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S16x512x512, .f32⟩
  | .hbm, ⟨1, _⟩ => ⟨S512x2048, .f32⟩
  | .hbm, ⟨2, _⟩ => ⟨S1x2048, .f32⟩
  | .hbm, ⟨3, _⟩ => ⟨S2048x512, .f32⟩
  | .hbm, ⟨4, _⟩ => ⟨S1x512, .f32⟩
  | .hbm, ⟨5, _⟩ => ⟨S8192x512, .f32⟩
  | .hbm, ⟨6, _⟩ => ⟨S8192x512, .f32⟩
  | .hbm, ⟨7, _⟩ => ⟨S16x512x512, .f32⟩
  | .local _ .vmem, ⟨0, _⟩ => ⟨S512x512, .f32⟩
  | .local _ .vmem, ⟨1, _⟩ => ⟨S512x512, .f32⟩
  | .local _ .vmem, ⟨2, _⟩ => ⟨S512x2048, .f32⟩
  | .local _ .vmem, ⟨3, _⟩ => ⟨S1x2048, .f32⟩
  | .local _ .vmem, ⟨4, _⟩ => ⟨S2048x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x512x512_S8192x512 : S16x512x512.ShapeCasts S8192x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  broadcasts_S1x2048_S512x2048 : S1x2048.Broadcasts S512x2048
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  broadcasts_S1x512_S512x512 : S1x512.Broadcasts S512x512
  shapeCasts_S8192x512_S16x512x512 : S8192x512.ShapeCasts S16x512x512
  dot_S512x512_S512x2048_S512x2048_1_0_0_1_n_n_wf : DotDims.WF S512x512 S512x2048 S512x2048 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .f32 = 32 ∨ (Rect.block (s := S2048x512) S2048x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x512.size a
  hwx0_5 : ∀ i : grid0.Coords, EltTy.bits .f32 = 32 ∨ (Rect.block (s := S8192x512) S512x512.size (cc0_transform_5 i) (hinb0_5 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.KbPoints.lean ====
/-
  The grid of the tiled feed-forward kernel has 8 × 4 points: point `t` works on row tile `t / 4` and on run `t % 4` of
  the 2048 hidden units. The body branches on the run only: at run 0 it casts the row tile into the first scratch and
  seeds the accumulator (the second scratch) with the run's partial product plus the second bias; at every later run
  it adds the run's partial product to the accumulator; at run 3 it also copies the accumulator to the output block.
  This module decides the three conditions over the grid, says where the output window is idle and where it is
  written back, and names the memrefs the body is called with.
-/
import proofs.«126397_g2000202884625981_pallasbulk_1329_16_alg».proof.Proof.Gen.Kernel.Frame
import proofs.«126397_g2000202884625981_pallasbulk_1329_16_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditions of the body, as the kernel computes them from the grid coordinates -/

/-- "This is the first run of the row tile": the condition of the cast into scratch and of the seeding store. -/
abbrev firstRun (i : grid0.Coords) : Prop := (Scalar.cmpi .ne (Scalar.extui (Scalar.cmpi .eq (BitVec.ofNat 32 (i 1).val) 0#32)) 0#32) = 1#1
/-- "This is a later run": the condition of the accumulating store. -/
abbrev laterRun (i : grid0.Coords) : Prop := (Scalar.cmpi .ne (Scalar.extui (Scalar.cmpi .ne (BitVec.ofNat 32 (i 1).val) 0#32)) 0#32) = 1#1
/-- "This is the last run": the condition of the copy to the output block. -/
abbrev lastRun (i : grid0.Coords) : Prop := k0_cond4 i = 1#1

theorem firstRun_iff : ∀ t : Fin cfg0.N, firstRun (grid0.coords t) ↔ t.val % 4 = 0 :=
  (by decide +kernel : ∀ t : Fin grid0.N, firstRun (grid0.coords t) ↔ t.val % 4 = 0)
theorem laterRun_iff : ∀ t : Fin cfg0.N, laterRun (grid0.coords t) ↔ ¬ t.val % 4 = 0 :=
  (by decide +kernel : ∀ t : Fin grid0.N, laterRun (grid0.coords t) ↔ ¬ t.val % 4 = 0)
theorem lastRun_iff : ∀ t : Fin cfg0.N, lastRun (grid0.coords t) ↔ t.val % 4 = 3 :=
  (by decide +kernel : ∀ t : Fin grid0.N, lastRun (grid0.coords t) ↔ t.val % 4 = 3)

/-! ## Where the windows are idle, and where the output block is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Before the last run the body stores nothing into the output block, -/
theorem idle5 : ∀ t : Fin cfg0.N, ¬ lastRun (grid0.coords t) → cfg0.idle 5 (grid0.coords t) = true := by decide +kernel
/-- and the pipeline does not write the block back there; -/
theorem noFlush5 : ∀ t : Fin cfg0.N, ¬ lastRun (grid0.coords t) → (cfg0.win 5).flush t = false := by decide +kernel
/-- at the last run it stores the whole block. -/
theorem live5 : ∀ t : Fin cfg0.N, lastRun (grid0.coords t) → cfg0.idle 5 (grid0.coords t) = false := by decide +kernel

/-! ## The memrefs the body is called with at a point -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x512 .f32 := win0_5.stage (cfg0.slots t 5)
abbrev hs5 (t : Fin cfg0.N) : (ms5 t).IsWhole := hstage0_5 ((cfg0.slots t 5).cast nbuf0_5)
/-- The scratch that keeps the row tile in the narrow format between the runs, -/
abbrev castM : Memref sig .tc .vmem S1024x512 .bf16 := Memref.whole cc0_scratch0
/-- and the accumulator. -/
abbrev accM : Memref sig .tc .vmem S1024x512 .f32 := Memref.whole cc0_scratch1
/-- Views through which the three written buffers' contents are stated. -/
abbrev castV : View sig .tc .vmem S1024x512 .bf16 := castM.view
abbrev accV : View sig .tc .vmem S1024x512 .f32 := accM.view
abbrev outV : View sig .tc .vmem S1024x512 .f32 := (Memref.whole cc0_stg5_0 : Memref sig .tc .vmem S1024x512 .f32).view

/-- What the region lends the body beside the windows: the two scratch buffers at some contents, and the generator
    register at some state. -/
theorem lent_eq (c : Dev nD) :
    (Pipeline.ΦA spec0 c : sProp 𝕄)
      = iprop(iprop((∃ d, owns (c : Thread nD τ) castM fullShare d) ∗ (∃ d, owns (c : Thread nD τ) accM fullShare d)) ∗ (∃ r, prngReg c r)) := by
  unfold Pipeline.ΦA; rw [scopedRest0_eq]; simp only [castM, accM, owns_whole]; try rfl

end Cert.Kernel.Tile

end
-- ==== Proof.KbRunFirst.lean ====
/-
  The body at the FIRST run of a row tile: it casts the row tile into the first scratch, forms the run's partial
  product from the cast tile and the run's slices of the two weights and of the first bias, and stores the partial
  product plus the second bias into the accumulator. The output block is not touched. What is left in the two scratch
  buffers is recorded as the list of the stores made, found while the body is run.
-/
import proofs.«126397_g2000202884625981_pallasbulk_1329_16_alg».proof.Proof.KbPoints
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores the first run makes into the two scratch buffers (last first), with the body's triple: from the five
    input blocks at their contents, the output buffer at contents handed back untouched and the two scratch buffers
    at anything, the body runs to a state with the inputs and the output buffer as they were and the scratch buffers
    with those stores made. -/
noncomputable def runFirst (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x512 .f32) (harg9 : arg9.IsWhole) (h1 : firstRun i) (h3 : ¬ laterRun i) (h4 : ¬ lastRun i)
    (x0 : Vec F S1024x512 .f32) (x1 : Vec F S512x512 .f32) (x2 : Vec F S1x512 .f32) (x3 : Vec F S512x512 .f32) (x4 : Vec F S1x512 .f32) :
    Σ' (LC : List (View.Piece (Elt F) S1024x512 .bf16)), { LA : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LC) ∗ (∃ f, arg9.view.loc (c : Thread nD τ) ↦[arg9.view.set]{fullShare} arg9.view.writes (Elt F) f LA)) -∗ K ⟨⟩))
          ⊢ wp frame (wpE (defs₀ (F := F)) Variants.none c none) E (cc0__ffn_kernel i arg2 harg2 arg3 harg3 arg4 harg4 arg5 harg5 arg6 harg6 arg7 harg7 arg8 harg8 arg9 harg9) K } := by
  refine ⟨?_, ?_, fun xi5 E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact h1 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Tile

end
-- ==== Proof.KbRunMiddle.lean ====
/-
  The body at a LATER run that is not the last (runs 1 and 2): the cast row tile is read back from the first scratch,
  the run's partial product is formed as at the first run, and the accumulator is replaced by its old contents plus
  the partial product. The first scratch and the output block are not touched.
-/
import proofs.«126397_g2000202884625981_pallasbulk_1329_16_alg».proof.Proof.KbRunFirst
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores a middle run makes into the accumulator (last first), with the body's triple: from the input blocks at
    their contents, the output buffer at contents handed back untouched, the first scratch at what the first run left
    (`xc`) and the accumulator at what the run before left (`xa`). -/
noncomputable def runMiddle (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x512 .f32) (harg9 : arg9.IsWhole) (h1 : ¬ firstRun i) (h3 : laterRun i) (h4 : ¬ lastRun i)
    (x0 : Vec F S1024x512 .f32) (x1 : Vec F S512x512 .f32) (x2 : Vec F S1x512 .f32) (x3 : Vec F S512x512 .f32) (x4 : Vec F S1x512 .f32) (xc : Vec F S1024x512 .bf16) (xa : Vec F S1024x512 .f32) :
    { LA : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xc ∗ owns (c : Thread nD τ) arg9 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xc ∗ (∃ f, arg9.view.loc (c : Thread nD τ) ↦[arg9.view.set]{fullShare} arg9.view.writes (Elt F) f LA)) -∗ K ⟨⟩))
          ⊢ wp frame (wpE (defs₀ (F := F)) Variants.none c none) E (cc0__ffn_kernel i arg2 harg2 arg3 harg3 arg4 harg4 arg5 harg5 arg6 harg6 arg7 harg7 arg8 harg8 arg9 harg9) K } := by
  refine ⟨?_, fun xi5 E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1
    sl_exec (disch := first | exact h1 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    iexists _; iexact HS1

end Cert.Kernel.Tile

end
-- ==== Proof.KbRunLast.lean ====
/-
  The body at the LAST run of a row tile (run 3): as at a middle run the accumulator is replaced by its old contents
  plus the run's partial product; then the accumulator is read back and stored, whole, into the output block.
-/
import proofs.«126397_g2000202884625981_pallasbulk_1329_16_alg».proof.Proof.KbRunMiddle
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores the last run makes into the output block and into the accumulator (last first), with the body's
    triple: the output buffer is taken at anything and handed back with its stores made. -/
noncomputable def runLast (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x512 .f32) (harg9 : arg9.IsWhole) (h1 : ¬ firstRun i) (h3 : laterRun i) (h4 : lastRun i)
    (x0 : Vec F S1024x512 .f32) (x1 : Vec F S512x512 .f32) (x2 : Vec F S1x512 .f32) (x3 : Vec F S512x512 .f32) (x4 : Vec F S1x512 .f32) (xc : Vec F S1024x512 .bf16) (xa : Vec F S1024x512 .f32) :
    Σ' (LO : List (View.Piece (Elt F) S1024x512 .f32)), { LA : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xc ∗ owns (c : Thread nD τ) arg9 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ owns (c : Thread nD τ) arg8 fullShare xc ∗ (∃ f, arg9.view.loc (c : Thread nD τ) ↦[arg9.view.set]{fullShare} arg9.view.writes (Elt F) f LA)) -∗ K ⟨⟩))
          ⊢ wp frame (wpE (defs₀ (F := F)) Variants.none c none) E (cc0__ffn_kernel i arg2 harg2 arg3 harg3 arg4 harg4 arg5 harg5 arg6 harg6 arg7 harg7 arg8 harg8 arg9 harg9) K } := by
  refine ⟨?_, ?_, fun E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1
    sl_exec (disch := first | exact h1 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; iexact HS1

end Cert.Kernel.Tile

end
-- ==== Proof.KbFrame.lean ====
/-
  The frame of the tiled feed-forward program: what the two scratch buffers and the output block hold after each
  grid point, by recursion on the point (the first run of a row tile starts afresh from the point's blocks; every
  later run continues from what the point before left), the region's invariant that carries the two scratch buffers
  from point to point, the body's obligation at every point (one of the three runs, chosen by the point's run number),
  and from them the run of the whole program: it terminates without a fault, every array of the pipeline ends at what
  the points wrote back, and the argument arrays end unchanged.
-/
import proofs.«126397_g2000202884625981_pallasbulk_1329_16_alg».proof.Proof.KbRunLast
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point, on the point's memrefs and blocks -/

/-- The first run at a point whose run number is 0. -/
abbrev firstAt (c : Dev nD) (t : Fin cfg0.N) (h0 : t.val % 4 = 0) :=
  runFirst (F := F) c (grid0.coords t) (ms0 t) (hs0 t) (ms1 t) (hs1 t) (ms2 t) (hs2 t) (ms3 t) (hs3 t) (ms4 t) (hs4 t) (ms5 t) (hs5 t) castM (Memref.isWhole_whole _) accM (Memref.isWhole_whole _)
    ((firstRun_iff t).mpr h0) (fun h => (laterRun_iff t).mp h h0) (fun h => by have := (lastRun_iff t).mp h; omega)
    (iblk m c 0 t) (iblk m c 1 t) (iblk m c 2 t) (iblk m c 3 t) (iblk m c 4 t)
/-- A middle run at a point whose run number is 1 or 2, from the scratch contents `xc`, `xa`. -/
abbrev middleAt (c : Dev nD) (t : Fin cfg0.N) (h0 : ¬ t.val % 4 = 0) (h3 : ¬ t.val % 4 = 3) (xc : Vec F S1024x512 .bf16) (xa : Vec F S1024x512 .f32) :=
  runMiddle (F := F) c (grid0.coords t) (ms0 t) (hs0 t) (ms1 t) (hs1 t) (ms2 t) (hs2 t) (ms3 t) (hs3 t) (ms4 t) (hs4 t) (ms5 t) (hs5 t) castM (Memref.isWhole_whole _) accM (Memref.isWhole_whole _)
    (fun h => h0 ((firstRun_iff t).mp h)) ((laterRun_iff t).mpr h0) (fun h => h3 ((lastRun_iff t).mp h))
    (iblk m c 0 t) (iblk m c 1 t) (iblk m c 2 t) (iblk m c 3 t) (iblk m c 4 t) xc xa
/-- The last run at a point whose run number is 3. -/
abbrev lastAt (c : Dev nD) (t : Fin cfg0.N) (h0 : ¬ t.val % 4 = 0) (h3 : t.val % 4 = 3) (xc : Vec F S1024x512 .bf16) (xa : Vec F S1024x512 .f32) :=
  runLast (F := F) c (grid0.coords t) (ms0 t) (hs0 t) (ms1 t) (hs1 t) (ms2 t) (hs2 t) (ms3 t) (hs3 t) (ms4 t) (hs4 t) (ms5 t) (hs5 t) castM (Memref.isWhole_whole _) accM (Memref.isWhole_whole _)
    (fun h => h0 ((firstRun_iff t).mp h)) ((laterRun_iff t).mpr h0) ((lastRun_iff t).mpr h3)
    (iblk m c 0 t) (iblk m c 1 t) (iblk m c 2 t) (iblk m c 3 t) (iblk m c 4 t) xc xa

/-! ## Every store made covers its buffer (each is one store of the whole block) -/

theorem cast_cover_first (c : Dev nD) (t : Fin cfg0.N) (h0 : t.val % 4 = 0) (y : S1024x512.Idx) :
    ∃ pc ∈ (firstAt m c t h0).1, y ∈ pc.1.set :=
  View.cover_of_tiledL (firstAt m c t h0).1 S1024x512.size (by sl_kernel_rfl) y
theorem acc_cover_first (c : Dev nD) (t : Fin cfg0.N) (h0 : t.val % 4 = 0) (y : S1024x512.Idx) :
    ∃ pc ∈ (firstAt m c t h0).2.1, y ∈ pc.1.set :=
  View.cover_of_tiledL (firstAt m c t h0).2.1 S1024x512.size (by sl_kernel_rfl) y
theorem acc_cover_middle (c : Dev nD) (t : Fin cfg0.N) (h0 : ¬ t.val % 4 = 0) (h3 : ¬ t.val % 4 = 3) (xc : Vec F S1024x512 .bf16) (xa : Vec F S1024x512 .f32) (y : S1024x512.Idx) :
    ∃ pc ∈ (middleAt m c t h0 h3 xc xa).1, y ∈ pc.1.set :=
  View.cover_of_tiledL (middleAt m c t h0 h3 xc xa).1 S1024x512.size (by sl_kernel_rfl) y
theorem out_cover_last (c : Dev nD) (t : Fin cfg0.N) (h0 : ¬ t.val % 4 = 0) (h3 : t.val % 4 = 3) (xc : Vec F S1024x512 .bf16) (xa : Vec F S1024x512 .f32) (y : S1024x512.Idx) :
    ∃ pc ∈ (lastAt m c t h0 h3 xc xa).1, y ∈ pc.1.set :=
  View.cover_of_tiledL (lastAt m c t h0 h3 xc xa).1 S1024x512.size (by sl_kernel_rfl) y
theorem acc_cover_last (c : Dev nD) (t : Fin cfg0.N) (h0 : ¬ t.val % 4 = 0) (h3 : t.val % 4 = 3) (xc : Vec F S1024x512 .bf16) (xa : Vec F S1024x512 .f32) (y : S1024x512.Idx) :
    ∃ pc ∈ (lastAt m c t h0 h3 xc xa).2.1, y ∈ pc.1.set :=
  View.cover_of_tiledL (lastAt m c t h0 h3 xc xa).2.1 S1024x512.size (by sl_kernel_rfl) y

/-! ## What the output block, the cast row tile and the accumulator hold after a point -/

/-- After the first run of a row tile: the output block is not named (the window is idle there); the first scratch
    holds the run's one store, the accumulator its one store. -/
def afterFirst (c : Dev nD) (t : Fin cfg0.N) (h0 : t.val % 4 = 0) : Vec F S1024x512 .f32 × Vec F S1024x512 .bf16 × Vec F S1024x512 .f32 :=
  (outV.read (Elt F) outV.junk, castV.read (Elt F) (castV.writes (Elt F) castV.junk (firstAt m c t h0).1),
    accV.read (Elt F) (accV.writes (Elt F) accV.junk (firstAt m c t h0).2.1))
/-- After a middle run: the cast row tile as it was, the accumulator at the run's store. -/
def afterMiddle (c : Dev nD) (t : Fin cfg0.N) (h0 : ¬ t.val % 4 = 0) (h3 : ¬ t.val % 4 = 3) (xc : Vec F S1024x512 .bf16) (xa : Vec F S1024x512 .f32) :
    Vec F S1024x512 .f32 × Vec F S1024x512 .bf16 × Vec F S1024x512 .f32 :=
  (outV.read (Elt F) outV.junk, xc, accV.read (Elt F) (accV.writes (Elt F) accV.junk (middleAt m c t h0 h3 xc xa).1))
/-- After the last run: the output block at the run's store into it as well. -/
def afterLast (c : Dev nD) (t : Fin cfg0.N) (h0 : ¬ t.val % 4 = 0) (h3 : t.val % 4 = 3) (xc : Vec F S1024x512 .bf16) (xa : Vec F S1024x512 .f32) :
    Vec F S1024x512 .f32 × Vec F S1024x512 .bf16 × Vec F S1024x512 .f32 :=
  (outV.read (Elt F) (outV.writes (Elt F) outV.junk (lastAt m c t h0 h3 xc xa).1), xc,
    accV.read (Elt F) (accV.writes (Elt F) accV.junk (lastAt m c t h0 h3 xc xa).2.1))

/-- THE ACCUMULATION over the grid: what the output block, the cast row tile and the accumulator hold after the body at
    position `n`. -/
def stateAt (c : Dev nD) : (n : ℕ) → n < cfg0.N → Vec F S1024x512 .f32 × Vec F S1024x512 .bf16 × Vec F S1024x512 .f32
  | 0, hn => afterFirst m c ⟨0, hn⟩ (Nat.zero_mod _)
  | n + 1, hn =>
    if h0 : (n + 1) % 4 = 0 then afterFirst m c ⟨n + 1, hn⟩ h0
    else if h3 : (n + 1) % 4 = 3 then
      afterLast m c ⟨n + 1, hn⟩ h0 h3 (stateAt c n (Nat.lt_of_succ_lt hn)).2.1 (stateAt c n (Nat.lt_of_succ_lt hn)).2.2
    else
      afterMiddle m c ⟨n + 1, hn⟩ h0 h3 (stateAt c n (Nat.lt_of_succ_lt hn)).2.1 (stateAt c n (Nat.lt_of_succ_lt hn)).2.2

theorem prev_lt (t : Fin cfg0.N) : t.val - 1 < cfg0.N := Nat.lt_of_le_of_lt (Nat.sub_le _ _) t.isLt

theorem stateAt_first (c : Dev nD) (t : Fin cfg0.N) (h0 : t.val % 4 = 0) : stateAt m c t.val t.isLt = afterFirst m c t h0 := by
  obtain ⟨n, hn⟩ := t
  cases n with
  | zero => rfl
  | succ n => exact dif_pos h0
theorem stateAt_middle (c : Dev nD) (t : Fin cfg0.N) (h0 : ¬ t.val % 4 = 0) (h3 : ¬ t.val % 4 = 3) :
    stateAt m c t.val t.isLt = afterMiddle m c t h0 h3 (stateAt m c (t.val - 1) (prev_lt t)).2.1 (stateAt m c (t.val - 1) (prev_lt t)).2.2 := by
  obtain ⟨n, hn⟩ := t
  cases n with
  | zero => exact absurd (Nat.zero_mod _) h0
  | succ n => exact (dif_neg h0).trans (dif_neg h3)
theorem stateAt_last (c : Dev nD) (t : Fin cfg0.N) (h0 : ¬ t.val % 4 = 0) (h3 : t.val % 4 = 3) :
    stateAt m c t.val t.isLt = afterLast m c t h0 h3 (stateAt m c (t.val - 1) (prev_lt t)).2.1 (stateAt m c (t.val - 1) (prev_lt t)).2.2 := by
  obtain ⟨n, hn⟩ := t
  cases n with
  | zero => exact absurd (Nat.zero_mod _) h0
  | succ n => exact (dif_neg h0).trans (dif_pos h3)

/-! ## The region's invariant: the two scratch buffers carried from point to point -/

/-- Before the first point what the region lends (both scratch buffers at anything); before any later point the first
    scratch at the cast row tile and the accumulator at what the point before left, and the generator register. -/
def carried (c : Dev nD) : (n : ℕ) → n ≤ cfg0.N → sProp 𝕄
  | 0, _ => Pipeline.ΦA spec0 c
  | n + 1, hn => iprop(iprop(owns (c : Thread nD τ) castM fullShare (stateAt m c n hn).2.1 ∗ owns (c : Thread nD τ) accM fullShare (stateAt m c n hn).2.2) ∗ (∃ r, prngReg c r))

theorem carried_zero (c : Dev nD) (n : ℕ) (h : n ≤ cfg0.N) (hz : n = 0) : carried m c n h = Pipeline.ΦA spec0 c := by
  subst hz; rfl
theorem carried_succ (c : Dev nD) (n : ℕ) (hn : n < cfg0.N) :
    carried m c (n + 1) hn = iprop(iprop(owns (c : Thread nD τ) castM fullShare (stateAt m c n hn).2.1 ∗ owns (c : Thread nD τ) accM fullShare (stateAt m c n hn).2.2) ∗ (∃ r, prngReg c r)) := rfl
theorem carried_pos (c : Dev nD) (n : ℕ) (h : n ≤ cfg0.N) (hz : n ≠ 0) :
    carried m c n h = iprop(iprop(owns (c : Thread nD τ) castM fullShare (stateAt m c (n - 1) (by omega)).2.1 ∗ owns (c : Thread nD τ) accM fullShare (stateAt m c (n - 1) (by omega)).2.2) ∗ (∃ r, prngReg c r)) := by
  cases n with
  | zero => exact absurd rfl hz
  | succ n => rfl

/-! ## The pipeline's proof data -/

/-- On core `c`: the arrays as the region finds them; after the body at a point each input's buffer at its block and the
    output's at the accumulation's first component; the invariant `carried`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stateAt m c t.val t.isLt).1
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (stateAt m c t.val t.isLt).1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]

set_option maxHeartbeats 4800000 in
/-- The body at any point: the inputs' memrefs hold their blocks; the point's run number says which of the three runs
    applies; the invariant hands the run the two scratch buffers (at anything before the first point, at what the point
    before left afterwards) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = carried m c (t.val + 1) t.isLt from rfl, carried_succ]
  rw [leaves0, leaves1, leaves2, leaves3, leaves4]
  have hN : t.val < 32 := lt_of_lt_of_eq t.isLt (show cfg0.N = 32 from N_0)
  by_cases h0 : t.val % 4 = 0
  · have hl : ¬ lastRun (grid0.coords t) := fun h => by have := (lastRun_iff t).mp h; omega
    rw [Dat.leavesExact_idle (dats m 0 c) 5 t (idle5 t hl) (noFlush5 t hl)]
    rw [stateAt_first m c t h0]
    unfold afterFirst; (try dsimp only)
    by_cases hz : t.val = 0
    · rw [carried_castSucc m c t, carried_zero m c _ _ hz, lent_eq]
      iintro ⟨⟨⟨HC, HA⟩, Hg⟩, Ho, ⟨%d0, H0⟩, ⟨%d1, H1⟩, ⟨%d2, H2⟩, ⟨%d3, H3⟩, ⟨%d4, H4⟩, ⟨%d5, H5⟩⟩
      iapply ((firstAt m c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [HC]; · iexact HC
      isplitl [HA]; · iexact HA
      iintro ⟨H0, H1, H2, H3, H4, H5, ⟨%ec, HC⟩, ⟨%ea, HA⟩⟩
      isplitl [HC HA Hg]
      · isplitl [HC HA]
        · isplitl [HC]
          · unfold owns; iexists _; isplitr
            swap; · iexact HC
            ipureintro; exact View.read_writes_of_cover _ _ _ _ _ (cast_cover_first m c t h0)
          · unfold owns; iexists _; isplitr
            swap; · iexact HA
            ipureintro; exact View.read_writes_of_cover _ _ _ _ _ (acc_cover_first m c t h0)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [carried_castSucc m c t, carried_pos m c _ _ hz]
      iintro ⟨⟨⟨HC, HA⟩, Hg⟩, Ho, ⟨%d0, H0⟩, ⟨%d1, H1⟩, ⟨%d2, H2⟩, ⟨%d3, H3⟩, ⟨%d4, H4⟩, ⟨%d5, H5⟩⟩
      iapply ((firstAt m c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [HC]; · iexists _; iexact HC
      isplitl [HA]; · iexists _; iexact HA
      iintro ⟨H0, H1, H2, H3, H4, H5, ⟨%ec, HC⟩, ⟨%ea, HA⟩⟩
      isplitl [HC HA Hg]
      · isplitl [HC HA]
        · isplitl [HC]
          · unfold owns; iexists _; isplitr
            swap; · iexact HC
            ipureintro; exact View.read_writes_of_cover _ _ _ _ _ (cast_cover_first m c t h0)
          · unfold owns; iexists _; isplitr
            swap; · iexact HA
            ipureintro; exact View.read_writes_of_cover _ _ _ _ _ (acc_cover_first m c t h0)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h3 : t.val % 4 = 3
    · rw [show (dats m 0 c).leavesExact 5 t = owns (c : Thread nD τ) (ms5 t) fullShare ((dats m 0 c).after 5 t) from by
        unfold Dat.leavesExact; rw [live5 t ((lastRun_iff t).mpr h3)], after5]
      rw [stateAt_last m c t h0 h3]
      unfold afterLast; (try dsimp only)
      rw [carried_castSucc m c t, carried_pos m c _ _ hz]
      iintro ⟨⟨⟨HC, HA⟩, Hg⟩, Ho, ⟨%d0, H0⟩, ⟨%d1, H1⟩, ⟨%d2, H2⟩, ⟨%d3, H3⟩, ⟨%d4, H4⟩, ⟨%d5, H5⟩⟩
      iapply ((lastAt m c t h0 h3 _ _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HC]; · iexact HC
      isplitl [HA]; · iexact HA
      iintro ⟨H0, H1, H2, H3, H4, ⟨%e5, H5⟩, HC, ⟨%ea, HA⟩⟩
      isplitl [HC HA Hg]
      · isplitl [HC HA]
        · isplitl [HC]
          · iexact HC
          · unfold owns; iexists _; isplitr
            swap; · iexact HA
            ipureintro; exact View.read_writes_of_cover _ _ _ _ _ (acc_cover_last m c t h0 h3 _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (out_cover_last m c t h0 h3 _ _)
    · have hl : ¬ lastRun (grid0.coords t) := fun h => h3 ((lastRun_iff t).mp h)
      rw [Dat.leavesExact_idle (dats m 0 c) 5 t (idle5 t hl) (noFlush5 t hl)]
      rw [stateAt_middle m c t h0 h3]
      unfold afterMiddle; (try dsimp only)
      rw [carried_castSucc m c t, carried_pos m c _ _ hz]
      iintro ⟨⟨⟨HC, HA⟩, Hg⟩, Ho, ⟨%d0, H0⟩, ⟨%d1, H1⟩, ⟨%d2, H2⟩, ⟨%d3, H3⟩, ⟨%d4, H4⟩, ⟨%d5, H5⟩⟩
      iapply ((middleAt m c t h0 h3 _ _).2 _ Set.univ _)
      isplitl [H0]; · iexact H0
      isplitl [H1]; · iexact H1
      isplitl [H2]; · iexact H2
      isplitl [H3]; · iexact H3
      isplitl [H4]; · iexact H4
      isplitl [H5]; · iexact H5
      isplitl [HC]; · iexact HC
      isplitl [HA]; · iexact HA
      iintro ⟨H0, H1, H2, H3, H4, H5, HC, ⟨%ea, HA⟩⟩
      isplitl [HC HA Hg]
      · isplitl [HC HA]
        · isplitl [HC]
          · iexact HC
          · unfold owns; iexists _; isplitr
            swap; · iexact HA
            ipureintro; exact View.read_writes_of_cover _ _ _ _ _ (acc_cover_middle m c t h0 h3 _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch lends the region is the invariant before the first point. -/
theorem lend (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the invariant gives back what was lent: the scratch buffers' named contents are forgotten. -/
theorem giveBack (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 32 := N_0; omega), lent_eq]
  iintro ⟨⟨HC, HA⟩, Hg⟩
  isplitl [HC HA]
  · isplitl [HC]
    · iexists _; iexact HC
    · iexists _; iexact HA
  iexact Hg

/-! ## The run and the frame -/

set_option backward.isDefEq.respectTransparency.types false in
/-- From any memory with zero counters every weakly fair execution of @main terminates without a fault, every array of
    the pipeline ends at what the proof data's points wrote back, and every other unscoped buffer as the host lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := lend m) (hout := giveBack m)

/-- The frame claim's statement at any instance of the floats: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Tile

end
-- ==== Proof.KiPoints.lean ====
/-
  The grid of the tiled feed-forward kernel has 8 × 4 points: point `t` works on row tile `t / 4` and on run `t % 4` of
  the 2048 hidden units. The body branches on the run only: at run 0 it casts the row tile into the first scratch and
  seeds the accumulator (the second scratch) with the run's partial product plus the second bias; at every later run
  it adds the run's partial product to the accumulator; at run 3 it also copies the accumulator to the output block.
  This module decides the three conditions over the grid, says where the output window is idle and where it is
  written back, and names the memrefs the body is called with.
-/
import proofs.«126397_g2000202884625981_pallasbulk_1329_16_alg».proof.Proof.Gen.KernelIdeal.Frame
import proofs.«126397_g2000202884625981_pallasbulk_1329_16_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions of the body, as the kernel computes them from the grid coordinates -/

/-- "This is the first run of the row tile": the condition of the cast into scratch and of the seeding store. -/
abbrev firstRun (i : grid0.Coords) : Prop := (Scalar.cmpi .ne (Scalar.extui (Scalar.cmpi .eq (BitVec.ofNat 32 (i 1).val) 0#32)) 0#32) = 1#1
/-- "This is a later run": the condition of the accumulating store. -/
abbrev laterRun (i : grid0.Coords) : Prop := (Scalar.cmpi .ne (Scalar.extui (Scalar.cmpi .ne (BitVec.ofNat 32 (i 1).val) 0#32)) 0#32) = 1#1
/-- "This is the last run": the condition of the copy to the output block. -/
abbrev lastRun (i : grid0.Coords) : Prop := k0_cond4 i = 1#1

theorem firstRun_iff : ∀ t : Fin cfg0.N, firstRun (grid0.coords t) ↔ t.val % 4 = 0 :=
  (by decide +kernel : ∀ t : Fin grid0.N, firstRun (grid0.coords t) ↔ t.val % 4 = 0)
theorem laterRun_iff : ∀ t : Fin cfg0.N, laterRun (grid0.coords t) ↔ ¬ t.val % 4 = 0 :=
  (by decide +kernel : ∀ t : Fin grid0.N, laterRun (grid0.coords t) ↔ ¬ t.val % 4 = 0)
theorem lastRun_iff : ∀ t : Fin cfg0.N, lastRun (grid0.coords t) ↔ t.val % 4 = 3 :=
  (by decide +kernel : ∀ t : Fin grid0.N, lastRun (grid0.coords t) ↔ t.val % 4 = 3)

/-! ## Where the windows are idle, and where the output block is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Before the last run the body stores nothing into the output block, -/
theorem idle5 : ∀ t : Fin cfg0.N, ¬ lastRun (grid0.coords t) → cfg0.idle 5 (grid0.coords t) = true := by decide +kernel
/-- and the pipeline does not write the block back there; -/
theorem noFlush5 : ∀ t : Fin cfg0.N, ¬ lastRun (grid0.coords t) → (cfg0.win 5).flush t = false := by decide +kernel
/-- at the last run it stores the whole block. -/
theorem live5 : ∀ t : Fin cfg0.N, lastRun (grid0.coords t) → cfg0.idle 5 (grid0.coords t) = false := by decide +kernel

/-! ## The memrefs the body is called with at a point -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x512 .f32 := win0_5.stage (cfg0.slots t 5)
abbrev hs5 (t : Fin cfg0.N) : (ms5 t).IsWhole := hstage0_5 ((cfg0.slots t 5).cast nbuf0_5)
/-- The scratch that keeps the row tile in the narrow format between the runs, -/
abbrev castM : Memref sig .tc .vmem S1024x512 .bf16 := Memref.whole cc0_scratch0
/-- and the accumulator. -/
abbrev accM : Memref sig .tc .vmem S1024x512 .f32 := Memref.whole cc0_scratch1
/-- Views through which the three written buffers' contents are stated. -/
abbrev castV : View sig .tc .vmem S1024x512 .bf16 := castM.view
abbrev accV : View sig .tc .vmem S1024x512 .f32 := accM.view
abbrev outV : View sig .tc .vmem S1024x512 .f32 := (Memref.whole cc0_stg5_0 : Memref sig .tc .vmem S1024x512 .f32).view

/-- What the region lends the body beside the windows: the two scratch buffers at some contents, and the generator
    register at some state. -/
theorem lent_eq (c : Dev nD) :
    (Pipeline.ΦA spec0 c : sProp 𝕄)
      = iprop(iprop((∃ d, owns (c : Thread nD τ) castM fullShare d) ∗ (∃ d, owns (c : Thread nD τ) accM fullShare d)) ∗ (∃ r, prngReg c r)) := by
  unfold Pipeline.ΦA; rw [scopedRest0_eq]; simp only [castM, accM, owns_whole]; try rfl

end Cert.KernelIdeal.Tile

end
-- ==== Proof.KiRunFirst.lean ====
/-
  The body at the FIRST run of a row tile: it casts the row tile into the first scratch, forms the run's partial
  product from the cast tile and the run's slices of the two weights and of the first bias, and stores the partial
  product plus the second bias into the accumulator. The output block is not touched. What is left in the two scratch
  buffers is recorded as the list of the stores made, found while the body is run.
-/
import proofs.«126397_g2000202884625981_pallasbulk_1329_16_alg».proof.Proof.KiPoints
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores the first run makes into the two scratch buffers (last first), with the body's triple: from the five
    input blocks at their contents, the output buffer at contents handed back untouched and the two scratch buffers
    at anything, the body runs to a state with the inputs and the output buffer as they were and the scratch buffers
    with those stores made. -/
noncomputable def runFirst (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x512 .f32) (harg9 : arg9.IsWhole) (h1 : firstRun i) (h3 : ¬ laterRun i) (h4 : ¬ lastRun i)
    (x0 : Vec F S1024x512 .f32) (x1 : Vec F S512x512 .f32) (x2 : Vec F S1x512 .f32) (x3 : Vec F S512x512 .f32) (x4 : Vec F S1x512 .f32) :
    Σ' (LC : List (View.Piece (Elt F) S1024x512 .bf16)), { LA : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LC) ∗ (∃ f, arg9.view.loc (c : Thread nD τ) ↦[arg9.view.set]{fullShare} arg9.view.writes (Elt F) f LA)) -∗ K ⟨⟩))
          ⊢ wp frame (wpE (defs₀ (F := F)) Variants.none c none) E (cc0__ffn_kernel i arg2 harg2 arg3 harg3 arg4 harg4 arg5 harg5 arg6 harg6 arg7 harg7 arg8 harg8 arg9 harg9) K } := by
  refine ⟨?_, ?_, fun xi5 E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact h1 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Tile

end
-- ==== Proof.KiRunMiddle.lean ====
/-
  The body at a LATER run that is not the last (runs 1 and 2): the cast row tile is read back from the first scratch,
  the run's partial product is formed as at the first run, and the accumulator is replaced by its old contents plus
  the partial product. The first scratch and the output block are not touched.
-/
import proofs.«126397_g2000202884625981_pallasbulk_1329_16_alg».proof.Proof.KiRunFirst
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores a middle run makes into the accumulator (last first), with the body's triple: from the input blocks at
    their contents, the output buffer at contents handed back untouched, the first scratch at what the first run left
    (`xc`) and the accumulator at what the run before left (`xa`). -/
noncomputable def runMiddle (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x512 .f32) (harg9 : arg9.IsWhole) (h1 : ¬ firstRun i) (h3 : laterRun i) (h4 : ¬ lastRun i)
    (x0 : Vec F S1024x512 .f32) (x1 : Vec F S512x512 .f32) (x2 : Vec F S1x512 .f32) (x3 : Vec F S512x512 .f32) (x4 : Vec F S1x512 .f32) (xc : Vec F S1024x512 .bf16) (xa : Vec F S1024x512 .f32) :
    { LA : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xc ∗ owns (c : Thread nD τ) arg9 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xc ∗ (∃ f, arg9.view.loc (c : Thread nD τ) ↦[arg9.view.set]{fullShare} arg9.view.writes (Elt F) f LA)) -∗ K ⟨⟩))
          ⊢ wp frame (wpE (defs₀ (F := F)) Variants.none c none) E (cc0__ffn_kernel i arg2 harg2 arg3 harg3 arg4 harg4 arg5 harg5 arg6 harg6 arg7 harg7 arg8 harg8 arg9 harg9) K } := by
  refine ⟨?_, fun xi5 E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1
    sl_exec (disch := first | exact h1 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    iexists _; iexact HS1

end Cert.KernelIdeal.Tile

end
-- ==== Proof.KiRunLast.lean ====
/-
  The body at the LAST run of a row tile (run 3): as at a middle run the accumulator is replaced by its old contents
  plus the run's partial product; then the accumulator is read back and stored, whole, into the output block.
-/
import proofs.«126397_g2000202884625981_pallasbulk_1329_16_alg».proof.Proof.KiRunMiddle
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores the last run makes into the output block and into the accumulator (last first), with the body's
    triple: the output buffer is taken at anything and handed back with its stores made. -/
noncomputable def runLast (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x512 .f32) (harg9 : arg9.IsWhole) (h1 : ¬ firstRun i) (h3 : laterRun i) (h4 : lastRun i)
    (x0 : Vec F S1024x512 .f32) (x1 : Vec F S512x512 .f32) (x2 : Vec F S1x512 .f32) (x3 : Vec F S512x512 .f32) (x4 : Vec F S1x512 .f32) (xc : Vec F S1024x512 .bf16) (xa : Vec F S1024x512 .f32) :
    Σ' (LO : List (View.Piece (Elt F) S1024x512 .f32)), { LA : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xc ∗ owns (c : Thread nD τ) arg9 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ owns (c : Thread nD τ) arg8 fullShare xc ∗ (∃ f, arg9.view.loc (c : Thread nD τ) ↦[arg9.view.set]{fullShare} arg9.view.writes (Elt F) f LA)) -∗ K ⟨⟩))
          ⊢ wp frame (wpE (defs₀ (F := F)) Variants.none c none) E (cc0__ffn_kernel i arg2 harg2 arg3 harg3 arg4 harg4 arg5 harg5 arg6 harg6 arg7 harg7 arg8 harg8 arg9 harg9) K } := by
  refine ⟨?_, ?_, fun E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1
    sl_exec (disch := first | exact h1 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; iexact HS1

end Cert.KernelIdeal.Tile

end
-- ==== Proof.KiFrame.lean ====
/-
  The frame of the tiled feed-forward program: what the two scratch buffers and the output block hold after each
  grid point, by recursion on the point (the first run of a row tile starts afresh from the point's blocks; every
  later run continues from what the point before left), the region's invariant that carries the two scratch buffers
  from point to point, the body's obligation at every point (one of the three runs, chosen by the point's run number),
  and from them the run of the whole program: it terminates without a fault, every array of the pipeline ends at what
  the points wrote back, and the argument arrays end unchanged.
-/
import proofs.«126397_g2000202884625981_pallasbulk_1329_16_alg».proof.Proof.KiRunLast
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point, on the point's memrefs and blocks -/

/-- The first run at a point whose run number is 0. -/
abbrev firstAt (c : Dev nD) (t : Fin cfg0.N) (h0 : t.val % 4 = 0) :=
  runFirst (F := F) c (grid0.coords t) (ms0 t) (hs0 t) (ms1 t) (hs1 t) (ms2 t) (hs2 t) (ms3 t) (hs3 t) (ms4 t) (hs4 t) (ms5 t) (hs5 t) castM (Memref.isWhole_whole _) accM (Memref.isWhole_whole _)
    ((firstRun_iff t).mpr h0) (fun h => (laterRun_iff t).mp h h0) (fun h => by have := (lastRun_iff t).mp h; omega)
    (iblk m c 0 t) (iblk m c 1 t) (iblk m c 2 t) (iblk m c 3 t) (iblk m c 4 t)
/-- A middle run at a point whose run number is 1 or 2, from the scratch contents `xc`, `xa`. -/
abbrev middleAt (c : Dev nD) (t : Fin cfg0.N) (h0 : ¬ t.val % 4 = 0) (h3 : ¬ t.val % 4 = 3) (xc : Vec F S1024x512 .bf16) (xa : Vec F S1024x512 .f32) :=
  runMiddle (F := F) c (grid0.coords t) (ms0 t) (hs0 t) (ms1 t) (hs1 t) (ms2 t) (hs2 t) (ms3 t) (hs3 t) (ms4 t) (hs4 t) (ms5 t) (hs5 t) castM (Memref.isWhole_whole _) accM (Memref.isWhole_whole _)
    (fun h => h0 ((firstRun_iff t).mp h)) ((laterRun_iff t).mpr h0) (fun h => h3 ((lastRun_iff t).mp h))
    (iblk m c 0 t) (iblk m c 1 t) (iblk m c 2 t) (iblk m c 3 t) (iblk m c 4 t) xc xa
/-- The last run at a point whose run number is 3. -/
abbrev lastAt (c : Dev nD) (t : Fin cfg0.N) (h0 : ¬ t.val % 4 = 0) (h3 : t.val % 4 = 3) (xc : Vec F S1024x512 .bf16) (xa : Vec F S1024x512 .f32) :=
  runLast (F := F) c (grid0.coords t) (ms0 t) (hs0 t) (ms1 t) (hs1 t) (ms2 t) (hs2 t) (ms3 t) (hs3 t) (ms4 t) (hs4 t) (ms5 t) (hs5 t) castM (Memref.isWhole_whole _) accM (Memref.isWhole_whole _)
    (fun h => h0 ((firstRun_iff t).mp h)) ((laterRun_iff t).mpr h0) ((lastRun_iff t).mpr h3)
    (iblk m c 0 t) (iblk m c 1 t) (iblk m c 2 t) (iblk m c 3 t) (iblk m c 4 t) xc xa

/-! ## Every store made covers its buffer (each is one store of the whole block) -/

theorem cast_cover_first (c : Dev nD) (t : Fin cfg0.N) (h0 : t.val % 4 = 0) (y : S1024x512.Idx) :
    ∃ pc ∈ (firstAt m c t h0).1, y ∈ pc.1.set :=
  View.cover_of_tiledL (firstAt m c t h0).1 S1024x512.size (by sl_kernel_rfl) y
theorem acc_cover_first (c : Dev nD) (t : Fin cfg0.N) (h0 : t.val % 4 = 0) (y : S1024x512.Idx) :
    ∃ pc ∈ (firstAt m c t h0).2.1, y ∈ pc.1.set :=
  View.cover_of_tiledL (firstAt m c t h0).2.1 S1024x512.size (by sl_kernel_rfl) y
theorem acc_cover_middle (c : Dev nD) (t : Fin cfg0.N) (h0 : ¬ t.val % 4 = 0) (h3 : ¬ t.val % 4 = 3) (xc : Vec F S1024x512 .bf16) (xa : Vec F S1024x512 .f32) (y : S1024x512.Idx) :
    ∃ pc ∈ (middleAt m c t h0 h3 xc xa).1, y ∈ pc.1.set :=
  View.cover_of_tiledL (middleAt m c t h0 h3 xc xa).1 S1024x512.size (by sl_kernel_rfl) y
theorem out_cover_last (c : Dev nD) (t : Fin cfg0.N) (h0 : ¬ t.val % 4 = 0) (h3 : t.val % 4 = 3) (xc : Vec F S1024x512 .bf16) (xa : Vec F S1024x512 .f32) (y : S1024x512.Idx) :
    ∃ pc ∈ (lastAt m c t h0 h3 xc xa).1, y ∈ pc.1.set :=
  View.cover_of_tiledL (lastAt m c t h0 h3 xc xa).1 S1024x512.size (by sl_kernel_rfl) y
theorem acc_cover_last (c : Dev nD) (t : Fin cfg0.N) (h0 : ¬ t.val % 4 = 0) (h3 : t.val % 4 = 3) (xc : Vec F S1024x512 .bf16) (xa : Vec F S1024x512 .f32) (y : S1024x512.Idx) :
    ∃ pc ∈ (lastAt m c t h0 h3 xc xa).2.1, y ∈ pc.1.set :=
  View.cover_of_tiledL (lastAt m c t h0 h3 xc xa).2.1 S1024x512.size (by sl_kernel_rfl) y

/-! ## What the output block, the cast row tile and the accumulator hold after a point -/

/-- After the first run of a row tile: the output block is not named (the window is idle there); the first scratch
    holds the run's one store, the accumulator its one store. -/
def afterFirst (c : Dev nD) (t : Fin cfg0.N) (h0 : t.val % 4 = 0) : Vec F S1024x512 .f32 × Vec F S1024x512 .bf16 × Vec F S1024x512 .f32 :=
  (outV.read (Elt F) outV.junk, castV.read (Elt F) (castV.writes (Elt F) castV.junk (firstAt m c t h0).1),
    accV.read (Elt F) (accV.writes (Elt F) accV.junk (firstAt m c t h0).2.1))
/-- After a middle run: the cast row tile as it was, the accumulator at the run's store. -/
def afterMiddle (c : Dev nD) (t : Fin cfg0.N) (h0 : ¬ t.val % 4 = 0) (h3 : ¬ t.val % 4 = 3) (xc : Vec F S1024x512 .bf16) (xa : Vec F S1024x512 .f32) :
    Vec F S1024x512 .f32 × Vec F S1024x512 .bf16 × Vec F S1024x512 .f32 :=
  (outV.read (Elt F) outV.junk, xc, accV.read (Elt F) (accV.writes (Elt F) accV.junk (middleAt m c t h0 h3 xc xa).1))
/-- After the last run: the output block at the run's store into it as well. -/
def afterLast (c : Dev nD) (t : Fin cfg0.N) (h0 : ¬ t.val % 4 = 0) (h3 : t.val % 4 = 3) (xc : Vec F S1024x512 .bf16) (xa : Vec F S1024x512 .f32) :
    Vec F S1024x512 .f32 × Vec F S1024x512 .bf16 × Vec F S1024x512 .f32 :=
  (outV.read (Elt F) (outV.writes (Elt F) outV.junk (lastAt m c t h0 h3 xc xa).1), xc,
    accV.read (Elt F) (accV.writes (Elt F) accV.junk (lastAt m c t h0 h3 xc xa).2.1))

/-- THE ACCUMULATION over the grid: what the output block, the cast row tile and the accumulator hold after the body at
    position `n`. -/
def stateAt (c : Dev nD) : (n : ℕ) → n < cfg0.N → Vec F S1024x512 .f32 × Vec F S1024x512 .bf16 × Vec F S1024x512 .f32
  | 0, hn => afterFirst m c ⟨0, hn⟩ (Nat.zero_mod _)
  | n + 1, hn =>
    if h0 : (n + 1) % 4 = 0 then afterFirst m c ⟨n + 1, hn⟩ h0
    else if h3 : (n + 1) % 4 = 3 then
      afterLast m c ⟨n + 1, hn⟩ h0 h3 (stateAt c n (Nat.lt_of_succ_lt hn)).2.1 (stateAt c n (Nat.lt_of_succ_lt hn)).2.2
    else
      afterMiddle m c ⟨n + 1, hn⟩ h0 h3 (stateAt c n (Nat.lt_of_succ_lt hn)).2.1 (stateAt c n (Nat.lt_of_succ_lt hn)).2.2

theorem prev_lt (t : Fin cfg0.N) : t.val - 1 < cfg0.N := Nat.lt_of_le_of_lt (Nat.sub_le _ _) t.isLt

theorem stateAt_first (c : Dev nD) (t : Fin cfg0.N) (h0 : t.val % 4 = 0) : stateAt m c t.val t.isLt = afterFirst m c t h0 := by
  obtain ⟨n, hn⟩ := t
  cases n with
  | zero => rfl
  | succ n => exact dif_pos h0
theorem stateAt_middle (c : Dev nD) (t : Fin cfg0.N) (h0 : ¬ t.val % 4 = 0) (h3 : ¬ t.val % 4 = 3) :
    stateAt m c t.val t.isLt = afterMiddle m c t h0 h3 (stateAt m c (t.val - 1) (prev_lt t)).2.1 (stateAt m c (t.val - 1) (prev_lt t)).2.2 := by
  obtain ⟨n, hn⟩ := t
  cases n with
  | zero => exact absurd (Nat.zero_mod _) h0
  | succ n => exact (dif_neg h0).trans (dif_neg h3)
theorem stateAt_last (c : Dev nD) (t : Fin cfg0.N) (h0 : ¬ t.val % 4 = 0) (h3 : t.val % 4 = 3) :
    stateAt m c t.val t.isLt = afterLast m c t h0 h3 (stateAt m c (t.val - 1) (prev_lt t)).2.1 (stateAt m c (t.val - 1) (prev_lt t)).2.2 := by
  obtain ⟨n, hn⟩ := t
  cases n with
  | zero => exact absurd (Nat.zero_mod _) h0
  | succ n => exact (dif_neg h0).trans (dif_pos h3)

/-! ## The region's invariant: the two scratch buffers carried from point to point -/

/-- Before the first point what the region lends (both scratch buffers at anything); before any later point the first
    scratch at the cast row tile and the accumulator at what the point before left, and the generator register. -/
def carried (c : Dev nD) : (n : ℕ) → n ≤ cfg0.N → sProp 𝕄
  | 0, _ => Pipeline.ΦA spec0 c
  | n + 1, hn => iprop(iprop(owns (c : Thread nD τ) castM fullShare (stateAt m c n hn).2.1 ∗ owns (c : Thread nD τ) accM fullShare (stateAt m c n hn).2.2) ∗ (∃ r, prngReg c r))

theorem carried_zero (c : Dev nD) (n : ℕ) (h : n ≤ cfg0.N) (hz : n = 0) : carried m c n h = Pipeline.ΦA spec0 c := by
  subst hz; rfl
theorem carried_succ (c : Dev nD) (n : ℕ) (hn : n < cfg0.N) :
    carried m c (n + 1) hn = iprop(iprop(owns (c : Thread nD τ) castM fullShare (stateAt m c n hn).2.1 ∗ owns (c : Thread nD τ) accM fullShare (stateAt m c n hn).2.2) ∗ (∃ r, prngReg c r)) := rfl
theorem carried_pos (c : Dev nD) (n : ℕ) (h : n ≤ cfg0.N) (hz : n ≠ 0) :
    carried m c n h = iprop(iprop(owns (c : Thread nD τ) castM fullShare (stateAt m c (n - 1) (by omega)).2.1 ∗ owns (c : Thread nD τ) accM fullShare (stateAt m c (n - 1) (by omega)).2.2) ∗ (∃ r, prngReg c r)) := by
  cases n with
  | zero => exact absurd rfl hz
  | succ n => rfl

/-! ## The pipeline's proof data -/

/-- On core `c`: the arrays as the region finds them; after the body at a point each input's buffer at its block and the
    output's at the accumulation's first component; the invariant `carried`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stateAt m c t.val t.isLt).1
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (stateAt m c t.val t.isLt).1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]

set_option maxHeartbeats 4800000 in
/-- The body at any point: the inputs' memrefs hold their blocks; the point's run number says which of the three runs
    applies; the invariant hands the run the two scratch buffers (at anything before the first point, at what the point
    before left afterwards) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = carried m c (t.val + 1) t.isLt from rfl, carried_succ]
  rw [leaves0, leaves1, leaves2, leaves3, leaves4]
  have hN : t.val < 32 := lt_of_lt_of_eq t.isLt (show cfg0.N = 32 from N_0)
  by_cases h0 : t.val % 4 = 0
  · have hl : ¬ lastRun (grid0.coords t) := fun h => by have := (lastRun_iff t).mp h; omega
    rw [Dat.leavesExact_idle (dats m 0 c) 5 t (idle5 t hl) (noFlush5 t hl)]
    rw [stateAt_first m c t h0]
    unfold afterFirst; (try dsimp only)
    by_cases hz : t.val = 0
    · rw [carried_castSucc m c t, carried_zero m c _ _ hz, lent_eq]
      iintro ⟨⟨⟨HC, HA⟩, Hg⟩, Ho, ⟨%d0, H0⟩, ⟨%d1, H1⟩, ⟨%d2, H2⟩, ⟨%d3, H3⟩, ⟨%d4, H4⟩, ⟨%d5, H5⟩⟩
      iapply ((firstAt m c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [HC]; · iexact HC
      isplitl [HA]; · iexact HA
      iintro ⟨H0, H1, H2, H3, H4, H5, ⟨%ec, HC⟩, ⟨%ea, HA⟩⟩
      isplitl [HC HA Hg]
      · isplitl [HC HA]
        · isplitl [HC]
          · unfold owns; iexists _; isplitr
            swap; · iexact HC
            ipureintro; exact View.read_writes_of_cover _ _ _ _ _ (cast_cover_first m c t h0)
          · unfold owns; iexists _; isplitr
            swap; · iexact HA
            ipureintro; exact View.read_writes_of_cover _ _ _ _ _ (acc_cover_first m c t h0)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [carried_castSucc m c t, carried_pos m c _ _ hz]
      iintro ⟨⟨⟨HC, HA⟩, Hg⟩, Ho, ⟨%d0, H0⟩, ⟨%d1, H1⟩, ⟨%d2, H2⟩, ⟨%d3, H3⟩, ⟨%d4, H4⟩, ⟨%d5, H5⟩⟩
      iapply ((firstAt m c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [HC]; · iexists _; iexact HC
      isplitl [HA]; · iexists _; iexact HA
      iintro ⟨H0, H1, H2, H3, H4, H5, ⟨%ec, HC⟩, ⟨%ea, HA⟩⟩
      isplitl [HC HA Hg]
      · isplitl [HC HA]
        · isplitl [HC]
          · unfold owns; iexists _; isplitr
            swap; · iexact HC
            ipureintro; exact View.read_writes_of_cover _ _ _ _ _ (cast_cover_first m c t h0)
          · unfold owns; iexists _; isplitr
            swap; · iexact HA
            ipureintro; exact View.read_writes_of_cover _ _ _ _ _ (acc_cover_first m c t h0)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h3 : t.val % 4 = 3
    · rw [show (dats m 0 c).leavesExact 5 t = owns (c : Thread nD τ) (ms5 t) fullShare ((dats m 0 c).after 5 t) from by
        unfold Dat.leavesExact; rw [live5 t ((lastRun_iff t).mpr h3)], after5]
      rw [stateAt_last m c t h0 h3]
      unfold afterLast; (try dsimp only)
      rw [carried_castSucc m c t, carried_pos m c _ _ hz]
      iintro ⟨⟨⟨HC, HA⟩, Hg⟩, Ho, ⟨%d0, H0⟩, ⟨%d1, H1⟩, ⟨%d2, H2⟩, ⟨%d3, H3⟩, ⟨%d4, H4⟩, ⟨%d5, H5⟩⟩
      iapply ((lastAt m c t h0 h3 _ _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HC]; · iexact HC
      isplitl [HA]; · iexact HA
      iintro ⟨H0, H1, H2, H3, H4, ⟨%e5, H5⟩, HC, ⟨%ea, HA⟩⟩
      isplitl [HC HA Hg]
      · isplitl [HC HA]
        · isplitl [HC]
          · iexact HC
          · unfold owns; iexists _; isplitr
            swap; · iexact HA
            ipureintro; exact View.read_writes_of_cover _ _ _ _ _ (acc_cover_last m c t h0 h3 _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (out_cover_last m c t h0 h3 _ _)
    · have hl : ¬ lastRun (grid0.coords t) := fun h => h3 ((lastRun_iff t).mp h)
      rw [Dat.leavesExact_idle (dats m 0 c) 5 t (idle5 t hl) (noFlush5 t hl)]
      rw [stateAt_middle m c t h0 h3]
      unfold afterMiddle; (try dsimp only)
      rw [carried_castSucc m c t, carried_pos m c _ _ hz]
      iintro ⟨⟨⟨HC, HA⟩, Hg⟩, Ho, ⟨%d0, H0⟩, ⟨%d1, H1⟩, ⟨%d2, H2⟩, ⟨%d3, H3⟩, ⟨%d4, H4⟩, ⟨%d5, H5⟩⟩
      iapply ((middleAt m c t h0 h3 _ _).2 _ Set.univ _)
      isplitl [H0]; · iexact H0
      isplitl [H1]; · iexact H1
      isplitl [H2]; · iexact H2
      isplitl [H3]; · iexact H3
      isplitl [H4]; · iexact H4
      isplitl [H5]; · iexact H5
      isplitl [HC]; · iexact HC
      isplitl [HA]; · iexact HA
      iintro ⟨H0, H1, H2, H3, H4, H5, HC, ⟨%ea, HA⟩⟩
      isplitl [HC HA Hg]
      · isplitl [HC HA]
        · isplitl [HC]
          · iexact HC
          · unfold owns; iexists _; isplitr
            swap; · iexact HA
            ipureintro; exact View.read_writes_of_cover _ _ _ _ _ (acc_cover_middle m c t h0 h3 _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch lends the region is the invariant before the first point. -/
theorem lend (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the invariant gives back what was lent: the scratch buffers' named contents are forgotten. -/
theorem giveBack (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 32 := N_0; omega), lent_eq]
  iintro ⟨⟨HC, HA⟩, Hg⟩
  isplitl [HC HA]
  · isplitl [HC]
    · iexists _; iexact HC
    · iexists _; iexact HA
  iexact Hg

/-! ## The run and the frame -/

set_option backward.isDefEq.respectTransparency.types false in
/-- From any memory with zero counters every weakly fair execution of @main terminates without a fault, every array of
    the pipeline ends at what the proof data's points wrote back, and every other unscoped buffer as the host lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := lend m) (hout := giveBack m)

/-- The frame claim's statement at any instance of the floats: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Tile

end
-- ==== Proof.KiPieces.lean ====
/-
  What the stores found by the three runs leave, as values: the first run leaves the cast of the row tile in the first
  scratch and, in the accumulator, the run's partial product plus the second bias; a later run leaves the old
  accumulator plus its partial product; the last run stores that same sum into the output block. Each buffer is
  written by ONE store of its whole block, so what it holds is that store's value, and a load of a whole buffer reads
  its contents.
-/
import proofs.«126397_g2000202884625981_pallasbulk_1329_16_alg».proof.Proof.KiFrame
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem hz : (![0, 0] : Fin 2 → Nat) = fun _ => 0 := funext fun a => by fin_cases a <;> rfl

/-- After the first run the first scratch holds the row tile, cast. -/
theorem cast_first (c : Dev nD) (t : Fin cfg0.N) (h0 : t.val % 4 = 0) : (afterFirst m c t h0).2.1 = k0_pay1 (iblk m c 0 t) := by
  unfold afterFirst; dsimp only
  rw [View.read_writes_eq_canon _ _ _ (cast_cover_first m c t h0)]
  unfold firstAt runFirst
  dsimp only
  sl_unfold_words

  rw [View.canon_unit_zero (S := S1024x512) hz]
  simp only [View.readAt_eq_ld, (hs0 t).read_unread, View.ld_unit_zero (S := S1024x512) hz]

/-- After the first run the accumulator holds the run's partial product (formed from the cast row tile) plus the
    second bias. -/
theorem acc_first (c : Dev nD) (t : Fin cfg0.N) (h0 : t.val % 4 = 0) :
    (afterFirst m c t h0).2.2 = k0_pay3 (k0_pay1 (iblk m c 0 t)) (iblk m c 1 t) (iblk m c 2 t) (iblk m c 3 t) (iblk m c 4 t) := by
  unfold afterFirst; dsimp only
  rw [View.read_writes_eq_canon _ _ _ (acc_cover_first m c t h0)]
  unfold firstAt runFirst
  dsimp only
  sl_unfold_words

  rw [View.canon_unit_zero (S := S1024x512) hz, View.readCov_unit_zero (S := S1024x512) _ hz]
  simp only [View.readAt_eq_ld, (hs0 t).read_unread, (hs1 t).read_unread, (hs2 t).read_unread, (hs3 t).read_unread, (hs4 t).read_unread,
    View.ld_unit_zero (S := S1024x512) hz, View.ld_unit_zero (S := S512x512) hz, View.ld_unit_zero (S := S1x512) hz]

/-- After a middle run the accumulator holds its old contents plus the run's partial product. -/
theorem acc_middle (c : Dev nD) (t : Fin cfg0.N) (h0 : ¬ t.val % 4 = 0) (h3 : ¬ t.val % 4 = 3) (xc : Vec F S1024x512 .bf16) (xa : Vec F S1024x512 .f32) :
    (afterMiddle m c t h0 h3 xc xa).2.2 = k0_pay4 xc (iblk m c 1 t) (iblk m c 2 t) (iblk m c 3 t) xa := by
  unfold afterMiddle; dsimp only
  rw [View.read_writes_eq_canon _ _ _ (acc_cover_middle m c t h0 h3 xc xa)]
  unfold middleAt runMiddle
  dsimp only
  sl_unfold_words

  rw [View.canon_unit_zero (S := S1024x512) hz]
  simp only [View.readAt_eq_ld, (hs1 t).read_unread, (hs2 t).read_unread, (hs3 t).read_unread, (Memref.isWhole_whole _).read_unread,
    View.ld_unit_zero (S := S1024x512) hz, View.ld_unit_zero (S := S512x512) hz, View.ld_unit_zero (S := S1x512) hz]

/-- After the last run the accumulator holds its old contents plus the run's partial product, -/
theorem acc_last (c : Dev nD) (t : Fin cfg0.N) (h0 : ¬ t.val % 4 = 0) (h3 : t.val % 4 = 3) (xc : Vec F S1024x512 .bf16) (xa : Vec F S1024x512 .f32) :
    (afterLast m c t h0 h3 xc xa).2.2 = k0_pay4 xc (iblk m c 1 t) (iblk m c 2 t) (iblk m c 3 t) xa := by
  unfold afterLast; dsimp only
  rw [View.read_writes_eq_canon _ _ _ (acc_cover_last m c t h0 h3 xc xa)]
  unfold lastAt runLast
  dsimp only
  sl_unfold_words

  rw [View.canon_unit_zero (S := S1024x512) hz]
  simp only [View.readAt_eq_ld, (hs1 t).read_unread, (hs2 t).read_unread, (hs3 t).read_unread, (Memref.isWhole_whole _).read_unread,
    View.ld_unit_zero (S := S1024x512) hz, View.ld_unit_zero (S := S512x512) hz, View.ld_unit_zero (S := S1x512) hz]

/-- and the output block holds the same sum, read back from the accumulator. -/
theorem out_last (c : Dev nD) (t : Fin cfg0.N) (h0 : ¬ t.val % 4 = 0) (h3 : t.val % 4 = 3) (xc : Vec F S1024x512 .bf16) (xa : Vec F S1024x512 .f32) :
    (afterLast m c t h0 h3 xc xa).1 = k0_pay4 xc (iblk m c 1 t) (iblk m c 2 t) (iblk m c 3 t) xa := by
  unfold afterLast; dsimp only
  rw [View.read_writes_eq_canon _ _ _ (out_cover_last m c t h0 h3 xc xa)]
  unfold lastAt runLast
  dsimp only
  sl_unfold_words

  rw [View.canon_unit_zero (S := S1024x512) hz, View.readCov_unit_zero (S := S1024x512) _ hz]
  simp only [View.readAt_eq_ld, (hs1 t).read_unread, (hs2 t).read_unread, (hs3 t).read_unread, (Memref.isWhole_whole _).read_unread,
    View.ld_unit_zero (S := S1024x512) hz, View.ld_unit_zero (S := S512x512) hz, View.ld_unit_zero (S := S1x512) hz]

end Cert.KernelIdeal.Tile

end
-- ==== Proof.FfnSpec.lean ====
/-
  The feed-forward layer as ONE function of its five argument arrays, index by index, on the extended reals:
  for a row `r` of the 8192 flattened rows and an output column `c`,

      y[r, c] = (∑ k < 2048, relu(∑ j < 512, x[r, j] · w1[j, k] + b1[0, k]) · w2[k, c]) + b2[0, c].

  Both programs compute this; one of them cuts the sum over the 2048 hidden units into four runs of 512 and adds
  the runs one after the other onto the bias. The two arrangements agree because addition on the extended reals is
  commutative and associative (no finiteness is needed: nothing is cancelled and nothing is distributed).
-/
import Idealize.ShloMosaic.PureOps.Ideal
import Idealize.ShloMosaic.Lib.ValueIdx

noncomputable section

namespace Cert.FfnSpec

open Idealize.ShloMosaic Idealize.ShloMosaic.ValueIdx

/-- A matrix of extended reals over a literal two-axis shape. -/
abbrev Mat (a b : Nat) : Type := (⟨2, ![a, b]⟩ : Shape).Idx → EReal

/-- The hidden activation of row `r` at hidden unit `k`: the row's product with column `k` of the first weight, plus
    the first bias, clipped below at zero. -/
def act {R : Nat} (x : Mat R 512) (w1 : Mat 512 2048) (b1 : Mat 1 2048) (r : Fin R) (k : Fin 2048) : EReal :=
  max ((∑ j : Fin 512, x (ix2 r j) * w1 (ix2 j k)) + b1 (ix2 0 k)) 0

/-- The layer's result over `R` rows: the activations times the second weight, plus the second bias. -/
def ffn {R : Nat} (x : Mat R 512) (w1 : Mat 512 2048) (b1 : Mat 1 2048) (w2 : Mat 2048 512) (b2 : Mat 1 512) : Mat R 512 :=
  fun i => (∑ k : Fin 2048, act x w1 b1 (i 0) k * w2 (ix2 k (i 1))) + b2 (ix2 0 (i 1))

/-- Hidden unit `k'` of run `f`: unit `512 · f + k'`. -/
def unit (f : Fin 4) (k' : Fin 512) : Fin 2048 := ⟨512 * f.val + k'.val, by have := f.isLt; have := k'.isLt; omega⟩

/-- The part of the second product that run `f` of 512 hidden units contributes at (r, c). -/
def part {R : Nat} (x : Mat R 512) (w1 : Mat 512 2048) (b1 : Mat 1 2048) (w2 : Mat 2048 512) (f : Fin 4) (r : Fin R) (c : Fin 512) : EReal :=
  ∑ k' : Fin 512, act x w1 b1 r (unit f k') * w2 (ix2 (unit f k') c)

/-- A sum over the 2048 hidden units is the sum of its four runs of 512. -/
theorem sum_units {M : Type*} [AddCommMonoid M] (g : Fin 2048 → M) : ∑ k : Fin 2048, g k = ∑ f : Fin 4, ∑ k' : Fin 512, g (unit f k') := by
  rw [← Fintype.sum_prod_type' (f := fun f k' => g (unit f k'))]
  refine (Fintype.sum_equiv (finProdFinEquiv (m := 4) (n := 512)) (fun p => g (unit p.1 p.2)) g fun p => ?_).symm
  refine congrArg g (Fin.ext ?_)
  show 512 * p.1.val + p.2.val = p.2.val + 512 * p.1.val
  omega

/-- The layer's result is the bias-seeded accumulation of the four runs, in the order the tiled program adds them. -/
theorem ffn_eq_parts {R : Nat} (x : Mat R 512) (w1 : Mat 512 2048) (b1 : Mat 1 2048) (w2 : Mat 2048 512) (b2 : Mat 1 512) (r : Fin R) (c : Fin 512) :
    ffn x w1 b1 w2 b2 (ix2 r c)
      = (((part x w1 b1 w2 0 r c + b2 (ix2 0 c)) + part x w1 b1 w2 1 r c) + part x w1 b1 w2 2 r c) + part x w1 b1 w2 3 r c := by
  unfold ffn
  rw [sum_units (fun k => act x w1 b1 ((ix2 r c : (⟨2, ![R, 512]⟩ : Shape).Idx) 0) k * w2 (ix2 k ((ix2 r c : (⟨2, ![R, 512]⟩ : Shape).Idx) 1))), Fin.sum_univ_four]
  show (part x w1 b1 w2 0 r c + part x w1 b1 w2 1 r c + part x w1 b1 w2 2 r c + part x w1 b1 w2 3 r c) + b2 (ix2 0 c) = _
  abel

end Cert.FfnSpec

end
-- ==== Proof.KiPayload.lean ====
/-
  What the kernel's grid steps compute, entry by entry, on the extended reals. A step works on a tile of 1024 rows and
  on one run of 512 hidden units. It keeps a copy `xc` of the row tile (a change of number format only: the identity
  here), and from the run's slices of the weights and of the first bias it forms

      part[p, q] = ∑ k' < 512, max((∑ j < 512, xc[p, j] · w1[j, k']) + b1[0, k'], 0) · w2[k', q],

  the run's contribution to the second product. The first run of a tile stores `part` plus the second bias (one row,
  repeated down the tile); every later run adds `part` onto what the tile's accumulator holds. Each matrix product is a
  sum over its one contracted axis, added onto a zero matrix; the contraction's index is identified with its one
  coordinate, so that the sums run over `Fin 512`.
-/
import proofs.«126397_g2000202884625981_pallasbulk_1329_16_alg».proof.Proof.Gen.KernelIdeal.Skeleton
import proofs.«126397_g2000202884625981_pallasbulk_1329_16_alg».proof.Proof.FfnSpec
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.TileValue

open Idealize.ShloMosaic Idealize.ShloMosaic.ValueIdx
open Cert.KernelIdeal Cert.KernelIdeal.Gen

/-- The dimension numbers of both products: rows of the left operand against columns of the right one. -/
abbrev D : DotDims S1024x512 S512x512 S1024x512 := dot_S1024x512_S512x512_S1024x512_1_0_0_1_n_n

/-- The copy of the row tile is the row tile: neither the change of format nor a cast to the same shape moves a value. -/
theorem cast_eq (x : Vec Ideal S1024x512 .f32) : (k0_pay1 (F := Ideal) x : S1024x512.Idx → EReal) = x := by
  unfold k0_pay1
  dsimp only
  rw [shapeCast_self, shapeCast_self]
  rfl

/-- The same, entry by entry. -/
theorem cast_apply (x : Vec Ideal S1024x512 .f32) (i : S1024x512.Idx) : k0_pay1 (F := Ideal) x i = x i :=
  congrFun (cast_eq x) i

/-- A product into the zero matrix at (p, q): row p of the left operand times column q of the right one, whatever the
    operands' formats. -/
theorem matmul_zero_apply {φ₁ φ₂ : FTy} (a : FVec Ideal S1024x512 φ₁) (b : FVec Ideal S512x512 φ₂) (p : Fin 1024) (q : Fin 512) :
    matmul D none a b (constant S1024x512 .f32 0x00000000#32) (ix2 p q) = ∑ j : Fin 512, a (ix2 p j) * b (ix2 j q) := by
  show FloatOps.matmul D none a b (constant S1024x512 .f32 0x00000000#32) (ix2 p q) = _
  rw [Ideal.matmul_constant_zero_apply, ← Equiv.sum_comp (contrEquiv1 D 512 rfl rfl).symm]
  refine Finset.sum_congr rfl fun j _ => ?_
  have cj := contrEquiv1_symm_val D 512 rfl rfl j
  have l : D.lhsIdx (ix2 p q) ((contrEquiv1 D 512 rfl rfl).symm j) = ix2 p j := by
    funext ax; apply Fin.ext
    match ax with
    | ⟨0, _⟩ => rfl
    | ⟨1, _⟩ => exact cj
  have r : D.rhsIdx (ix2 p q) ((contrEquiv1 D 512 rfl rfl).symm j) = ix2 j q := by
    funext ax; apply Fin.ext
    match ax with
    | ⟨0, _⟩ => exact cj
    | ⟨1, _⟩ => rfl
  rw [l, r]

/-- A single row of 512 entries repeated down the 1024 rows, whatever its format. -/
theorem row_apply {φ : FTy} (b : FVec Ideal S1x512 φ) (p : Fin 1024) (q : Fin 512) :
    broadcastTo S1024x512 b broadcasts_S1x512_S1024x512 (ix2 p q) = b (ix2 0 q) := by
  refine broadcastTo_apply b _ (ix2 p q) (ix2 0 q) fun a => ?_
  match a with
  | ⟨0, _⟩ => rfl
  | ⟨1, _⟩ => rfl

/-- The run's hidden activations over the tile: the first product plus the run's slice of the first bias, clipped
    below at zero. -/
def hidden (xc : Vec Ideal S1024x512 .bf16) (w1 : Vec Ideal S512x512 .f32) (b1 : Vec Ideal S1x512 .f32) : FVec Ideal S1024x512 .bf16 :=
  maximumf
    (addf
      (truncf .bf16 (matmul (φ₁ := .bf16) (φ₂ := .bf16) D none xc (truncf .bf16 (w1 : FVec Ideal S512x512 .f32) bitsLt_bf16_f32)
        (constant S1024x512 .f32 0x00000000#32)) bitsLt_bf16_f32)
      (broadcastTo S1024x512 (truncf .bf16 (b1 : FVec Ideal S1x512 .f32) bitsLt_bf16_f32 : FVec Ideal S1x512 .bf16) broadcasts_S1x512_S1024x512))
    (broadcast S1024x512 (Scalar.ofBits (F := Ideal) .bf16 0x0000#16))

/-- Entry (p, k') of the run's hidden activations. -/
theorem hidden_apply (xc : Vec Ideal S1024x512 .bf16) (w1 : Vec Ideal S512x512 .f32) (b1 : Vec Ideal S1x512 .f32) (p : Fin 1024) (k' : Fin 512) :
    hidden xc w1 b1 (ix2 p k') = max ((∑ j : Fin 512, xc (ix2 p j) * w1 (ix2 j k')) + b1 (ix2 0 k')) 0 := by
  unfold hidden
  rw [maximumf_apply, addf_apply, truncf_apply, matmul_zero_apply, row_apply, broadcast_apply]
  show max _ (Ideal.ofBits .bf16 0x0000#16) = _
  rw [Ideal.ofBits_zero_bf16]
  rfl

/-- THE RUN'S CONTRIBUTION at (p, q): the hidden activations of row p times column q of the run's slice of the second
    weight. -/
theorem partial_apply (xc : Vec Ideal S1024x512 .bf16) (w1 : Vec Ideal S512x512 .f32) (b1 : Vec Ideal S1x512 .f32) (w2 : Vec Ideal S512x512 .f32)
    (p : Fin 1024) (q : Fin 512) :
    k0_pay2 (F := Ideal) xc w1 b1 w2 (ix2 p q)
      = ∑ k' : Fin 512, max ((∑ j : Fin 512, xc (ix2 p j) * w1 (ix2 j k')) + b1 (ix2 0 k')) 0 * w2 (ix2 k' q) := by
  unfold k0_pay2
  refine (matmul_zero_apply (hidden xc w1 b1) (truncf .bf16 (w2 : FVec Ideal S512x512 .f32) bitsLt_bf16_f32) p q).trans ?_
  refine Finset.sum_congr rfl fun k' _ => ?_
  rw [hidden_apply]
  rfl

/-- THE FIRST RUN of a tile stores its contribution plus the second bias. -/
theorem seed_apply (xc : Vec Ideal S1024x512 .bf16) (w1 : Vec Ideal S512x512 .f32) (b1 : Vec Ideal S1x512 .f32) (w2 : Vec Ideal S512x512 .f32)
    (b2 : Vec Ideal S1x512 .f32) (p : Fin 1024) (q : Fin 512) :
    k0_pay3 (F := Ideal) xc w1 b1 w2 b2 (ix2 p q) = k0_pay2 (F := Ideal) xc w1 b1 w2 (ix2 p q) + b2 (ix2 0 q) := by
  unfold k0_pay3
  rw [shapeCast_self, addf_apply, row_apply]

/-- A LATER RUN adds its contribution onto what the accumulator holds. -/
theorem step_apply (xc : Vec Ideal S1024x512 .bf16) (w1 : Vec Ideal S512x512 .f32) (b1 : Vec Ideal S1x512 .f32) (w2 : Vec Ideal S512x512 .f32)
    (xa : Vec Ideal S1024x512 .f32) (p : Fin 1024) (q : Fin 512) :
    k0_pay4 (F := Ideal) xc w1 b1 w2 xa (ix2 p q) = xa (ix2 p q) + k0_pay2 (F := Ideal) xc w1 b1 w2 (ix2 p q) := by
  unfold k0_pay4
  rw [shapeCast_self, addf_apply]

end Cert.KernelIdeal.TileValue

end
-- ==== Proof.RefShapes.lean ====
/-
  The two changes of shape around the layer. The input arrives as 16 tiles of 512 rows of 512 entries and is read as
  8192 rows of 512 entries; the result is computed as 8192 rows and handed back as 16 tiles. Both keep the entries in
  row-major order: entry (t, r, j) of the tiled array is entry (512 · t + r, j) of the flat one.
-/
import Idealize.ShloMosaic.PureOps.Ideal

noncomputable section

namespace Cert.FfnShape

open Idealize.ShloMosaic

/-- The tiled and the flat shapes hold the same number of entries. -/
theorem tiles_to_rows : (⟨3, ![16, 512, 512]⟩ : Shape).ShapeCasts (⟨2, ![8192, 512]⟩ : Shape) := by decide
theorem rows_to_tiles : (⟨2, ![8192, 512]⟩ : Shape).ShapeCasts (⟨3, ![16, 512, 512]⟩ : Shape) := by decide

/-- The tiled input read as 8192 rows. -/
def rows (a : (⟨3, ![16, 512, 512]⟩ : Shape).Idx → EReal) : (⟨2, ![8192, 512]⟩ : Shape).Idx → EReal :=
  shapeCast (⟨2, ![8192, 512]⟩ : Shape) a tiles_to_rows

/-- The 8192 result rows handed back as 16 tiles. -/
def tiles (y : (⟨2, ![8192, 512]⟩ : Shape).Idx → EReal) : (⟨3, ![16, 512, 512]⟩ : Shape).Idx → EReal :=
  shapeCast (⟨3, ![16, 512, 512]⟩ : Shape) y rows_to_tiles

end Cert.FfnShape

end
-- ==== Proof.KiBlocks.lean ====
/-
  Where the kernel's blocks sit in the arrays. The kernel runs 8 × 4 = 32 steps; step t works on row tile t / 4
  (rows 1024·(t / 4) … 1024·(t / 4) + 1023 of the flattened input and of the result) and on run t % 4 of the hidden
  units (units 512·(t % 4) … 512·(t % 4) + 511). Here, for every step:

  * the flattening before the steps leaves the tiled input read as 8192 rows;
  * the input's block is the row tile; the first weight's block is the run's 512 columns, the first bias's the run's
    512 entries, the second weight's the run's 512 rows, the second bias's block the whole bias (a block's entry sits at
    block index × block size + its own coordinate on each axis);
  * the result's block read off any contents of the result array is the row tile of those contents; a tile is written
    back at the last of its four runs, and row r lies in the tile written back at step 4·(r / 1024) + 3, so the blocks
    written back cover the array;
  * the reshaping after the steps hands the result rows back as 16 tiles.
-/
import proofs.«126397_g2000202884625981_pallasbulk_1329_16_alg».proof.Proof.Gen.KernelIdeal.Frame
import proofs.«126397_g2000202884625981_pallasbulk_1329_16_alg».proof.Proof.Gen.KernelIdeal.Points
import proofs.«126397_g2000202884625981_pallasbulk_1329_16_alg».proof.Proof.FfnSpec
import proofs.«126397_g2000202884625981_pallasbulk_1329_16_alg».proof.Proof.RefShapes
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open Idealize.ShloMosaic.ValueIdx
open Idealize.ShloMosaic.StableHlo

namespace Cert.KernelIdeal.TileValue

open Cert.KernelIdeal Cert.KernelIdeal.Gen Cert.FfnSpec Cert.FfnShape

variable (m : (ℓ : Loc nD τ sig) → Buf (Elt Ideal) ℓ)

/-- The run of hidden units step t works on. -/
def runOf (t : Fin cfg0.N) : Fin 4 := ⟨t.val % 4, Nat.mod_lt _ (by decide)⟩

/-- Row p of step t's row tile, as a row of the flattened arrays. -/
def tileRow (t : Fin cfg0.N) (p : Fin 1024) : Fin 8192 :=
  ⟨1024 * (t.val / 4) + p.val, by
    have h : t.val < grid0.N := t.isLt
    have hN : grid0.N = 32 := N_0
    have hp : p.val < 1024 := p.isLt
    omega⟩

theorem runOf_val (t : Fin cfg0.N) : (runOf t).val = t.val % 4 := rfl
theorem tileRow_val (t : Fin cfg0.N) (p : Fin 1024) : (tileRow t p).val = 1024 * (t.val / 4) + p.val := rfl
/-- Hidden unit k' of step t's run. -/
theorem unit_runOf_val (t : Fin cfg0.N) (k' : Fin 512) : (unit (runOf t) k').val = 512 * (t.val % 4) + k'.val := rfl

/-- The flattening before the steps leaves the tiled input read as 8192 rows. -/
theorem V_v0 (c : Dev nD) : (Gen.V m c main_v0 : S8192x512.Idx → EReal) = rows (m ((c : Thread nD τ).loc main_arg0)) := by
  show StableHlo.after hostOps0 (fun b => m (c, b)) (Proc.devRef .tc main_v0) = _
  after_results
  rfl

/-- The block indices at step t, decided over the 32 steps: the input's and the result's blocks move down with the row
    tile, the first weight's and first bias's blocks move right and the second weight's block moves down with the run,
    the second bias's block stays at the origin. -/
theorem idx_facts : ∀ t : Fin cfg0.N, win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = 0 ∧ win0_2.index t (1 : Fin 2) = t.val % 4
    ∧ win0_3.index t (0 : Fin 2) = t.val % 4 ∧ win0_3.index t (1 : Fin 2) = 0
    ∧ win0_4.index t (0 : Fin 2) = 0 ∧ win0_4.index t (1 : Fin 2) = 0
    ∧ win0_5.index t (0 : Fin 2) = t.val / 4 ∧ win0_5.index t (1 : Fin 2) = 0 :=
  (by decide +kernel : ∀ t : Fin grid0.N, _)

/-- The input's block at step t holds the step's row tile of the flattened input. -/
theorem iblk0_apply (c : Dev nD) (t : Fin cfg0.N) (p : Fin 1024) (j : Fin 512) :
    (Gen.iblk m c 0 t : Vec Ideal S1024x512 .f32) (ix2 p j) = rows (m ((c : Thread nD τ).loc main_arg0)) (ix2 (tileRow t p) j) := by
  obtain ⟨e0, e1, -⟩ := idx_facts t
  unfold Gen.iblk
  rw [View.read_apply]
  show V m c main_v0 (((cfg0.win 0).blk t).view.emb (ix2 p j)) = _
  rw [V_v0]
  refine congrArg _ (funext fun a => Fin.ext ?_)
  match a with
  | ⟨0, _⟩ => show win0_0.index t (0 : Fin 2) * 1024 + 1 * p.val = 1024 * (t.val / 4) + p.val; omega
  | ⟨1, _⟩ => show win0_0.index t (1 : Fin 2) * 512 + 1 * j.val = j.val; omega

/-- The first weight's block at step t holds the columns of the step's run. -/
theorem iblk1_apply (c : Dev nD) (t : Fin cfg0.N) (j k' : Fin 512) :
    (Gen.iblk m c 1 t : Vec Ideal S512x512 .f32) (ix2 j k') = (m ((c : Thread nD τ).loc main_arg1) : S512x2048.Idx → EReal) (ix2 j (unit (runOf t) k')) := by
  obtain ⟨-, -, e0, e1, -⟩ := idx_facts t
  unfold Gen.iblk
  rw [View.read_apply]
  show V m c main_arg1 (((cfg0.win 1).blk t).view.emb (ix2 j k')) = _
  rw [V_main_arg1]
  refine congrArg _ (funext fun a => Fin.ext ?_)
  match a with
  | ⟨0, _⟩ => show win0_1.index t (0 : Fin 2) * 512 + 1 * j.val = j.val; omega
  | ⟨1, _⟩ => show win0_1.index t (1 : Fin 2) * 512 + 1 * k'.val = 512 * (t.val % 4) + k'.val; omega

/-- The first bias's block at step t holds the entries of the step's run. -/
theorem iblk2_apply (c : Dev nD) (t : Fin cfg0.N) (k' : Fin 512) :
    (Gen.iblk m c 2 t : Vec Ideal S1x512 .f32) (ix2 0 k') = (m ((c : Thread nD τ).loc main_arg2) : S1x2048.Idx → EReal) (ix2 0 (unit (runOf t) k')) := by
  obtain ⟨-, -, -, -, e0, e1, -⟩ := idx_facts t
  unfold Gen.iblk
  rw [View.read_apply]
  show V m c main_arg2 (((cfg0.win 2).blk t).view.emb (ix2 0 k')) = _
  rw [V_main_arg2]
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * k'.val = 512 * (t.val % 4) + k'.val; omega

/-- The second weight's block at step t holds the rows of the step's run. -/
theorem iblk3_apply (c : Dev nD) (t : Fin cfg0.N) (k' q : Fin 512) :
    (Gen.iblk m c 3 t : Vec Ideal S512x512 .f32) (ix2 k' q) = (m ((c : Thread nD τ).loc main_arg3) : S2048x512.Idx → EReal) (ix2 (unit (runOf t) k') q) := by
  obtain ⟨-, -, -, -, -, -, e0, e1, -⟩ := idx_facts t
  unfold Gen.iblk
  rw [View.read_apply]
  show V m c main_arg3 (((cfg0.win 3).blk t).view.emb (ix2 k' q)) = _
  rw [V_main_arg3]
  refine congrArg _ (funext fun a => Fin.ext ?_)
  match a with
  | ⟨0, _⟩ => show win0_3.index t (0 : Fin 2) * 512 + 1 * k'.val = 512 * (t.val % 4) + k'.val; omega
  | ⟨1, _⟩ => show win0_3.index t (1 : Fin 2) * 512 + 1 * q.val = q.val; omega

/-- The second bias's block at any step is the whole second bias. -/
theorem iblk4_apply (c : Dev nD) (t : Fin cfg0.N) (q : Fin 512) :
    (Gen.iblk m c 4 t : Vec Ideal S1x512 .f32) (ix2 0 q) = (m ((c : Thread nD τ).loc main_arg4) : S1x512.Idx → EReal) (ix2 0 q) := by
  obtain ⟨-, -, -, -, -, -, -, -, e0, e1, -⟩ := idx_facts t
  unfold Gen.iblk
  rw [View.read_apply]
  show V m c main_arg4 (((cfg0.win 4).blk t).view.emb (ix2 0 q)) = _
  rw [V_main_arg4]
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * q.val = q.val; omega

/-- The result's block at step t, read off any contents of the result array, is the step's row tile of them. -/
theorem blk5_read (G : S8192x512.Idx → EReal) (t : Fin cfg0.N) (p : Fin 1024) (q : Fin 512) :
    ((cfg0.win 5).blk t).view.read (Elt Ideal) G (ix2 p q) = G (ix2 (tileRow t p) q) := by
  obtain ⟨-, -, -, -, -, -, -, -, -, -, e0, e1⟩ := idx_facts t
  rw [View.read_apply]
  refine congrArg G (funext fun a => Fin.ext ?_)
  match a with
  | ⟨0, _⟩ => show win0_5.index t (0 : Fin 2) * 1024 + 1 * p.val = 1024 * (t.val / 4) + p.val; omega
  | ⟨1, _⟩ => show win0_5.index t (1 : Fin 2) * 512 + 1 * q.val = q.val; omega

/-- A row index is in step t's result block iff each coordinate is in the block's range on its axis. -/
theorem mem_blk5 (t : Fin cfg0.N) (i : S8192x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v1).slice (win0_5.rect t)).set ↔ _
  rw [View.set_slice_whole, Rect.mem_set_unit]
  exact Iff.rfl

/-- Row r lies in the tile written back at step 4·(r / 1024) + 3: the blocks written back cover the result array. -/
theorem cover5 (i : S8192x512.Idx) : ∃ t : Fin cfg0.N, (cfg0.win 5).flush t = true ∧ i ∈ ((cfg0.win 5).blk t).view.set := by
  have hi0 : (i 0).val < 8192 := (i 0).isLt
  have hi1 : (i 1).val < 512 := (i 1).isLt
  have hN : grid0.N = 32 := N_0
  obtain ⟨t, ht⟩ : ∃ t : Fin cfg0.N, t.val = 4 * ((i 0).val / 1024) + 3 :=
    ⟨⟨4 * ((i 0).val / 1024) + 3, by show _ < grid0.N; rw [hN]; omega⟩, rfl⟩
  obtain ⟨-, -, -, -, -, -, -, -, -, -, e0, e1⟩ := idx_facts t
  refine ⟨t, (flush0_5 t).mpr (by omega), ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega

/-- THE RESULT ARRAY from the tiles written back, for any proof data: if what every last run of a tile writes back is
    the tile's rows of one function `G` of the row index, the result array ends holding `G`. -/
theorem arrAt5_of_rows {c : Dev nD} (dat : Dat τ (Elt Ideal) Unit ℕ (UR sig nD τ) ℕ cfg0 c) (G : S8192x512.Idx → EReal)
    (h : ∀ t : Fin cfg0.N, t.val % 4 = 3 → ∀ (p : Fin 1024) (q : Fin 512),
      (dat.flushed 5 t : S1024x512.Idx → EReal) (ix2 p q) = G (ix2 (tileRow t p) q)) :
    dat.arrAt 5 cfg0.N = G :=
  dat.arrAt_eq_of_cover 5 G (fun t hf => by
    funext y
    obtain ⟨p, q, rfl⟩ : ∃ (p : Fin 1024) (q : Fin 512), y = ix2 p q := ⟨y 0, y 1, eq_ix2 y⟩
    exact (h t ((flush0_5 t).mp hf) p q).trans (blk5_read G t p q).symm) cover5

/-- The reshaping after the steps hands the result rows back as 16 tiles, for any proof data. -/
theorem tail_v2 (dats : (p : Fin 1) → (c : Dev nD) → Dat τ (Elt Ideal) Unit ℕ (UR sig nD τ) ℕ (cfgs p) c) (c : Dev nD) :
    (Pipeline.afterTail₀ cfgs dats 0 (Gen.V0 m) [hostOps1] c main_v2 : S16x512x512.Idx → EReal) = tiles ((dats 0 c).arrAt 5 cfg0.N) := by
  unfold Pipeline.afterTail₀
  show StableHlo.after hostOps1 _ (Proc.devRef .tc main_v2) = _
  after_results
  unfold tiles
  refine congrArg (fun y => shapeCast (⟨3, ![16, 512, 512]⟩ : Shape) y rows_to_tiles) ?_
  exact Pipeline.withArrays_arr spec0 launch0.win.arr_inj c _ _ 5

end Cert.KernelIdeal.TileValue

end
-- ==== Proof.KiAccum.lean ====
/-
  The accumulation over the grid, read as values on the extended reals. Write X for the 8192 flattened input rows and
  w1, b1, w2, b2 for the other four arguments. Point t works on rows 1024·(t / 4) … of X and on run t % 4 of the
  hidden units. By induction on the point: after point t the first scratch holds the point's row tile of X, and the
  accumulator holds, at (p, q), the second bias plus the partial products of runs 0 … t % 4 for row 1024·(t / 4) + p, added
  in that order. At run 3 that ordered sum is the layer's entry (the four runs exhaust the hidden units), and it is what
  the point writes back; the written-back blocks cover the result array.
-/
import proofs.«126397_g2000202884625981_pallasbulk_1329_16_alg».proof.Proof.KiPieces
import proofs.«126397_g2000202884625981_pallasbulk_1329_16_alg».proof.Proof.KiPayload
import proofs.«126397_g2000202884625981_pallasbulk_1329_16_alg».proof.Proof.KiBlocks
import proofs.«126397_g2000202884625981_pallasbulk_1329_16_alg».proof.Proof.FfnSpec
import proofs.«126397_g2000202884625981_pallasbulk_1329_16_alg».proof.Proof.RefShapes
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.TileValue

open Cert.KernelIdeal Cert.KernelIdeal.Gen Cert.KernelIdeal.Tile Cert.FfnSpec Cert.FfnShape

variable (m : (ℓ : Loc nD τ sig) → Buf (Elt Ideal) ℓ) (ρ : Dev nD → PrngReg)

/-- The flattened input rows. -/
abbrev X (c : Dev nD) : Mat 8192 512 := rows (m ((c : Thread nD τ).loc main_arg0))

/-- The partial product of run `f` at row `r`, column `q` (zero past the four runs). -/
def runPart (c : Dev nD) (f : ℕ) (r : Fin 8192) (q : Fin 512) : EReal :=
  if h : f < 4 then part (X m c) (m ((c : Thread nD τ).loc main_arg1)) (m ((c : Thread nD τ).loc main_arg2)) (m ((c : Thread nD τ).loc main_arg3)) ⟨f, h⟩ r q else 0

/-- The accumulator after run `f`: the second bias added to run 0's partial product, then the later runs' added one
    after the other. -/
def accSpec (c : Dev nD) : ℕ → Fin 8192 → Fin 512 → EReal
  | 0, r, q => runPart m c 0 r q + (m ((c : Thread nD τ).loc main_arg4) : Mat 1 512) (ix2 0 q)
  | f + 1, r, q => accSpec c f r q + runPart m c (f + 1) r q

/-- A point's partial product, formed from a first scratch that holds the point's row tile, is the run's partial
    product of the whole arrays at the tile's rows: the point's weight and bias blocks are the run's slices. -/
theorem partial_eq (c : Dev nD) (t : Fin cfg0.N) (xc : Vec Ideal S1024x512 .bf16)
    (hxc : ∀ (p : Fin 1024) (j : Fin 512), xc (ix2 p j) = X m c (ix2 (tileRow t p) j)) (p : Fin 1024) (q : Fin 512) :
    k0_pay2 (F := Ideal) xc (iblk m c 1 t) (iblk m c 2 t) (iblk m c 3 t) (ix2 p q) = runPart m c (t.val % 4) (tileRow t p) q := by
  rw [partial_apply]
  unfold runPart
  rw [dif_pos (Nat.mod_lt _ (by decide))]
  unfold part act
  refine Finset.sum_congr rfl fun k' _ => ?_
  rw [iblk2_apply m c t k', iblk3_apply m c t k' q, Finset.sum_congr rfl (fun j _ => by rw [hxc p j, iblk1_apply m c t j k'])]
  rfl

/-- The first run of a row tile. -/
theorem first_case (c : Dev nD) (t : Fin cfg0.N) (h0 : t.val % 4 = 0) :
    (∀ (p : Fin 1024) (j : Fin 512), (afterFirst m c t h0).2.1 (ix2 p j) = X m c (ix2 (tileRow t p) j))
    ∧ (∀ (p : Fin 1024) (q : Fin 512), (afterFirst m c t h0).2.2 (ix2 p q) = accSpec m c (t.val % 4) (tileRow t p) q) := by
  have hc : ∀ (p : Fin 1024) (j : Fin 512), k0_pay1 (F := Ideal) (iblk m c 0 t) (ix2 p j) = X m c (ix2 (tileRow t p) j) := fun p j => by
    rw [cast_apply]; exact iblk0_apply m c t p j
  refine ⟨fun p j => by rw [cast_first]; exact hc p j, fun p q => ?_⟩
  rw [acc_first, seed_apply, partial_eq m c t _ hc p q, iblk4_apply m c t q, h0]
  rfl

/-- A later run: the old accumulator plus the run's partial product. -/
theorem later_case (c : Dev nD) (t : Fin cfg0.N) (h0 : ¬ t.val % 4 = 0) (xc : Vec Ideal S1024x512 .bf16) (xa : Vec Ideal S1024x512 .f32)
    (hxc : ∀ (p : Fin 1024) (j : Fin 512), xc (ix2 p j) = X m c (ix2 (tileRow t p) j))
    (hxa : ∀ (p : Fin 1024) (q : Fin 512), xa (ix2 p q) = accSpec m c ((t.val - 1) % 4) (tileRow t p) q) (p : Fin 1024) (q : Fin 512) :
    k0_pay4 (F := Ideal) xc (iblk m c 1 t) (iblk m c 2 t) (iblk m c 3 t) xa (ix2 p q) = accSpec m c (t.val % 4) (tileRow t p) q := by
  rw [step_apply, partial_eq m c t xc hxc p q, hxa p q]
  have e : t.val % 4 = (t.val - 1) % 4 + 1 := by omega
  rw [e]
  rfl

/-- THE INVARIANT, by induction on the point. -/
theorem state_eq (c : Dev nD) : ∀ (n : ℕ) (hn : n < cfg0.N),
    (∀ (p : Fin 1024) (j : Fin 512), (stateAt m c n hn).2.1 (ix2 p j) = X m c (ix2 (tileRow ⟨n, hn⟩ p) j))
    ∧ (∀ (p : Fin 1024) (q : Fin 512), (stateAt m c n hn).2.2 (ix2 p q) = accSpec m c (n % 4) (tileRow ⟨n, hn⟩ p) q)
  | 0, hn => by
    rw [stateAt_first m c ⟨0, hn⟩ (Nat.zero_mod _)]
    exact first_case m c ⟨0, hn⟩ (Nat.zero_mod _)
  | n + 1, hn => by
    by_cases h0 : (n + 1) % 4 = 0
    · rw [stateAt_first m c ⟨n + 1, hn⟩ h0]
      exact first_case m c ⟨n + 1, hn⟩ h0
    · obtain ⟨ihc, iha⟩ := state_eq c n (Nat.lt_of_succ_lt hn)
      have hrow : ∀ p : Fin 1024, tileRow ⟨n, Nat.lt_of_succ_lt hn⟩ p = tileRow ⟨n + 1, hn⟩ p := fun p => Fin.ext (by
        show 1024 * (n / 4) + p.val = 1024 * ((n + 1) / 4) + p.val
        omega)
      have hxc : ∀ (p : Fin 1024) (j : Fin 512), (stateAt m c n (Nat.lt_of_succ_lt hn)).2.1 (ix2 p j) = X m c (ix2 (tileRow ⟨n + 1, hn⟩ p) j) :=
        fun p j => by rw [ihc p j, hrow p]
      have hxa : ∀ (p : Fin 1024) (q : Fin 512), (stateAt m c n (Nat.lt_of_succ_lt hn)).2.2 (ix2 p q) = accSpec m c (((⟨n + 1, hn⟩ : Fin cfg0.N).val - 1) % 4) (tileRow ⟨n + 1, hn⟩ p) q :=
        fun p q => by rw [iha p q, hrow p]; rfl
      by_cases h3 : (n + 1) % 4 = 3
      · rw [stateAt_last m c ⟨n + 1, hn⟩ h0 h3]
        refine ⟨fun p j => hxc p j, fun p q => ?_⟩
        rw [acc_last]
        exact later_case m c ⟨n + 1, hn⟩ h0 _ _ hxc hxa p q
      · rw [stateAt_middle m c ⟨n + 1, hn⟩ h0 h3]
        refine ⟨fun p j => hxc p j, fun p q => ?_⟩
        rw [acc_middle]
        exact later_case m c ⟨n + 1, hn⟩ h0 _ _ hxc hxa p q

/-- The layer's result over the 8192 rows, as contents of the result array. -/
abbrev result (c : Dev nD) : Mat 8192 512 :=
  ffn (X m c) (m ((c : Thread nD τ).loc main_arg1)) (m ((c : Thread nD τ).loc main_arg2)) (m ((c : Thread nD τ).loc main_arg3)) (m ((c : Thread nD τ).loc main_arg4))

/-- After the last run of a row tile the accumulated sum is the layer's entry. -/
theorem accSpec_three (c : Dev nD) (r : Fin 8192) (q : Fin 512) : accSpec m c 3 r q = result m c (ix2 r q) := by
  refine Eq.trans ?_ (ffn_eq_parts (X m c) _ _ _ _ r q).symm
  simp only [accSpec, runPart, show (0 : ℕ) < 4 from by decide, show (0 + 1 : ℕ) < 4 from by decide, show (0 + 1 + 1 : ℕ) < 4 from by decide,
    show (0 + 1 + 1 + 1 : ℕ) < 4 from by decide, dite_true]
  rfl

/-- What the output block holds after the last run of a row tile: the tile's rows of the layer's result. -/
theorem out_eq (c : Dev nD) (t : Fin cfg0.N) (h3 : t.val % 4 = 3) (p : Fin 1024) (q : Fin 512) :
    (stateAt m c t.val t.isLt).1 (ix2 p q) = result m c (ix2 (tileRow t p) q) := by
  have h0 : ¬ t.val % 4 = 0 := by omega
  have hs := (state_eq m c t.val t.isLt).2 p q
  rw [stateAt_last m c t h0 h3] at hs ⊢
  rw [acc_last] at hs
  rw [out_last, hs, h3]
  exact accSpec_three m c _ q

/-- So a point that writes the output block back writes its block of the layer's result. -/
theorem flushed_eq (c : Dev nD) (t : Fin cfg0.N) (hf : (cfg0.win 5).flush t = true) :
    (Tile.dats m 0 c).flushed 5 t = ((cfg0.win 5).blk t).view.read (Elt Ideal) (result m c) := by
  have h3 : t.val % 4 = 3 := (flush0_5 t).mp hf
  show (cfg0.win 5).cut (grid0.coords t) ((Tile.dats m 0 c).after 5 t) = _
  rw [after5]
  funext y
  obtain ⟨p, q, rfl⟩ : ∃ (p : Fin 1024) (q : Fin 512), y = ix2 p q := ⟨y 0, y 1, eq_ix2 y⟩
  rw [blk5_read]
  exact out_eq m c t h3 p q

/-- The result array ends holding the layer's result. -/
theorem final (c : Dev nD) : (Tile.dats m 0 c).arrAt 5 cfg0.N = result m c :=
  (Tile.dats m 0 c).arrAt_eq_of_cover 5 (result m c) (flushed_eq m c) cover5

/-- The run, read: the result is the layer's result handed back as 16 tiles, and the arguments are unchanged. -/
theorem run : θ_run Cert.KernelIdeal.defs (onTc (τ := τ) (main (F := Ideal))) ⟨m, fun _ => 0, ρ⟩ (fun r => ∀ c : Dev nD,
      r.2.mem ((c.tc : Thread nD τ).loc main_v2)
        = tiles (ffn (rows (m ((c.tc : Thread nD τ).loc main_arg0))) (m ((c.tc : Thread nD τ).loc main_arg1)) (m ((c.tc : Thread nD τ).loc main_arg2))
            (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run Cert.KernelIdeal.defs _ _).mono (fun _ h c =>
    ⟨((h c).2 main_v2 (Pipeline.mem_restRefs_of main_v2 (by decide) (by decide))).trans ((tail_v2 m (Tile.dats m) c).trans (congrArg tiles (final m c))),
      ((h c).2 main_arg0 (Pipeline.mem_restRefs_of main_arg0 (by decide) (by decide))).trans (W_main_arg0 m (Tile.dats m) c),
      ((h c).1 1).trans (((Tile.dats m 0 c).arrAt_in 1 rfl _).trans ((Tile.A_eq m c 1).trans (V_main_arg1 m c))),
      ((h c).1 2).trans (((Tile.dats m 0 c).arrAt_in 2 rfl _).trans ((Tile.A_eq m c 2).trans (V_main_arg2 m c))),
      ((h c).1 3).trans (((Tile.dats m 0 c).arrAt_in 3 rfl _).trans ((Tile.A_eq m c 3).trans (V_main_arg3 m c))),
      ((h c).1 4).trans (((Tile.dats m 0 c).arrAt_in 4 rfl _).trans ((Tile.A_eq m c 4).trans (V_main_arg4 m c)))⟩)
    (Tile.run_main m ρ)

end Cert.KernelIdeal.TileValue

end
-- ==== Proof.RefTile.lean ====
/-
  A tile of rows of the layer is the layer of the tile. The specification's entry (r, c) reads row r of the input and
  nothing else of it: so if a 512-row matrix `x` holds the rows `r0 0, r0 1, …` of a taller matrix `X`, the layer of
  `x` at (p, q) is the layer of `X` at (r0 p, q), the weights and biases being the same.
-/
import proofs.«126397_g2000202884625981_pallasbulk_1329_16_alg».proof.Proof.FfnSpec

noncomputable section

namespace Cert.FfnTile

open Idealize.ShloMosaic Idealize.ShloMosaic.ValueIdx Cert.FfnSpec

/-- The activation of a row depends on that row alone. -/
theorem act_of_rows {R R' : Nat} (X : Mat R 512) (x : Mat R' 512) (w1 : Mat 512 2048) (b1 : Mat 1 2048)
    (p : Fin R') (r : Fin R) (hx : ∀ j : Fin 512, x (ix2 p j) = X (ix2 r j)) (k : Fin 2048) :
    act x w1 b1 p k = act X w1 b1 r k := by
  unfold act
  simp only [hx]

/-- The layer's entry (p, q) over rows `x` is its entry (r, q) over rows `X` when row p of `x` is row r of `X`. -/
theorem ffn_of_rows {R R' : Nat} (X : Mat R 512) (x : Mat R' 512) (w1 : Mat 512 2048) (b1 : Mat 1 2048) (w2 : Mat 2048 512) (b2 : Mat 1 512)
    (p : Fin R') (r : Fin R) (hx : ∀ j : Fin 512, x (ix2 p j) = X (ix2 r j)) (q : Fin 512) :
    ffn x w1 b1 w2 b2 (ix2 p q) = ffn X w1 b1 w2 b2 (ix2 r q) := by
  show (∑ k : Fin 2048, act x w1 b1 p k * w2 (ix2 k q)) + b2 (ix2 0 q) = (∑ k : Fin 2048, act X w1 b1 r k * w2 (ix2 k q)) + b2 (ix2 0 q)
  simp only [act_of_rows X x w1 b1 p r hx]

end Cert.FfnTile

end
-- ==== Proof.RefPayload.lean ====
/-
  What one grid step of the reference computes, entry by entry. The step loads a tile `x` of 512 rows, the two
  weights and the two biases whole, and stores

      (relu(x · w1 + b1) · w2) + b2,

  the two biases being single rows repeated down the 512 rows. Read at entry (p, q) of the tile this is

      (∑ k < 2048, max((∑ j < 512, x[p, j] · w1[j, k]) + b1[0, k], 0) · w2[k, q]) + b2[0, q],

  which is the layer's specification `Cert.FfnSpec.ffn` over the 512 rows of the tile. Each matrix product is a sum
  over its one contracted axis (the accumulator it adds onto is the zero matrix); the contraction's index is
  identified with its one coordinate, so that the sums run over `Fin 512` and `Fin 2048`.
-/
import proofs.«126397_g2000202884625981_pallasbulk_1329_16_alg».proof.Proof.Gen.ReferenceIdeal.Skeleton
import proofs.«126397_g2000202884625981_pallasbulk_1329_16_alg».proof.Proof.FfnSpec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.FfnSpec

/-- The first product's dimension numbers: rows of the left operand against columns of the right one. -/
abbrev D1 : DotDims S512x512 S512x2048 S512x2048 := dot_S512x512_S512x2048_S512x2048_1_0_0_1_n_n
/-- The second product's. -/
abbrev D2 : DotDims S512x2048 S2048x512 S512x512 := dot_S512x2048_S2048x512_S512x512_1_0_0_1_n_n

/-- The first product at (p, k): row p of the left operand times column k of the right one. -/
theorem matmul1_apply (a : FVec Ideal S512x512 .f32) (b : FVec Ideal S512x2048 .f32) (p : Fin 512) (k : Fin 2048) :
    matmul D1 none a b (constant S512x2048 .f32 0x00000000#32) (ix2 p k) = ∑ j : Fin 512, a (ix2 p j) * b (ix2 j k) := by
  show FloatOps.matmul D1 none a b (constant S512x2048 .f32 0x00000000#32) (ix2 p k) = _
  rw [Ideal.matmul_constant_zero_apply, ← Equiv.sum_comp (contrEquiv1 D1 512 rfl rfl).symm]
  refine Finset.sum_congr rfl fun j _ => ?_
  have cj := contrEquiv1_symm_val D1 512 rfl rfl j
  have l : D1.lhsIdx (ix2 p k) ((contrEquiv1 D1 512 rfl rfl).symm j) = ix2 p j := by
    funext ax; apply Fin.ext
    match ax with
    | ⟨0, _⟩ => rfl
    | ⟨1, _⟩ => exact cj
  have r : D1.rhsIdx (ix2 p k) ((contrEquiv1 D1 512 rfl rfl).symm j) = ix2 j k := by
    funext ax; apply Fin.ext
    match ax with
    | ⟨0, _⟩ => exact cj
    | ⟨1, _⟩ => rfl
  rw [l, r]

/-- The second product at (p, q): row p of the hidden activations times column q of the second weight. -/
theorem matmul2_apply (a : FVec Ideal S512x2048 .f32) (b : FVec Ideal S2048x512 .f32) (p : Fin 512) (q : Fin 512) :
    matmul D2 none a b (constant S512x512 .f32 0x00000000#32) (ix2 p q) = ∑ k : Fin 2048, a (ix2 p k) * b (ix2 k q) := by
  show FloatOps.matmul D2 none a b (constant S512x512 .f32 0x00000000#32) (ix2 p q) = _
  rw [Ideal.matmul_constant_zero_apply, ← Equiv.sum_comp (contrEquiv1 D2 2048 rfl rfl).symm]
  refine Finset.sum_congr rfl fun k _ => ?_
  have ck := contrEquiv1_symm_val D2 2048 rfl rfl k
  have l : D2.lhsIdx (ix2 p q) ((contrEquiv1 D2 2048 rfl rfl).symm k) = ix2 p k := by
    funext ax; apply Fin.ext
    match ax with
    | ⟨0, _⟩ => rfl
    | ⟨1, _⟩ => exact ck
  have r : D2.rhsIdx (ix2 p q) ((contrEquiv1 D2 2048 rfl rfl).symm k) = ix2 k q := by
    funext ax; apply Fin.ext
    match ax with
    | ⟨0, _⟩ => exact ck
    | ⟨1, _⟩ => rfl
  rw [l, r]

/-- The first bias, one row of 2048 entries, repeated down the 512 rows. -/
theorem bias1_apply (b1 : FVec Ideal S1x2048 .f32) (p : Fin 512) (k : Fin 2048) :
    broadcastTo S512x2048 b1 broadcasts_S1x2048_S512x2048 (ix2 p k) = b1 (ix2 0 k) := by
  refine broadcastTo_apply b1 _ (ix2 p k) (ix2 0 k) fun a => ?_
  match a with
  | ⟨0, _⟩ => rfl
  | ⟨1, _⟩ => rfl

/-- The second bias, one row of 512 entries, repeated down the 512 rows. -/
theorem bias2_apply (b2 : FVec Ideal S1x512 .f32) (p : Fin 512) (q : Fin 512) :
    broadcastTo S512x512 b2 broadcasts_S1x512_S512x512 (ix2 p q) = b2 (ix2 0 q) := by
  refine broadcastTo_apply b2 _ (ix2 p q) (ix2 0 q) fun a => ?_
  match a with
  | ⟨0, _⟩ => rfl
  | ⟨1, _⟩ => rfl

/-- The hidden activations of the tile: the first product plus the first bias, clipped below at zero. -/
def hidden (x : Vec Ideal S512x512 .f32) (w1 : Vec Ideal S512x2048 .f32) (b1 : Vec Ideal S1x2048 .f32) : FVec Ideal S512x2048 .f32 :=
  maximumf (addf (matmul (φ₁ := .f32) (φ₂ := .f32) D1 none (shapeCast S512x512 x shapeCasts_S512x512_S512x512 : FVec Ideal S512x512 .f32) (w1 : FVec Ideal S512x2048 .f32)
        (constant S512x2048 .f32 0x00000000#32))
      (broadcastTo S512x2048 b1 broadcasts_S1x2048_S512x2048 : FVec Ideal S512x2048 .f32))
    (broadcast S512x2048 (Scalar.ofBits (F := Ideal) .f32 0x00000000#32))

/-- Entry (p, k) of the hidden activations is the specification's activation of row p at unit k. -/
theorem hidden_apply (x : Vec Ideal S512x512 .f32) (w1 : Vec Ideal S512x2048 .f32) (b1 : Vec Ideal S1x2048 .f32) (p : Fin 512) (k : Fin 2048) :
    hidden x w1 b1 (ix2 p k) = act x w1 b1 p k := by
  unfold hidden act
  rw [maximumf_apply, addf_apply, shapeCast_self, matmul1_apply, bias1_apply, broadcast_apply]
  show max _ (Ideal.ofBits .f32 0x00000000#32) = _
  rw [Ideal.ofBits_zero_f32]

/-- The stored value at (p, q), over any hidden activations. -/
theorem out_apply (h : FVec Ideal S512x2048 .f32) (w2 : Vec Ideal S2048x512 .f32) (b2 : Vec Ideal S1x512 .f32) (p q : Fin 512) :
    addf (matmul (φ₁ := .f32) (φ₂ := .f32) D2 none h (w2 : FVec Ideal S2048x512 .f32) (constant S512x512 .f32 0x00000000#32))
        (broadcastTo S512x512 b2 broadcasts_S1x512_S512x512 : FVec Ideal S512x512 .f32) (ix2 p q)
      = (∑ k : Fin 2048, h (ix2 p k) * w2 (ix2 k q)) + b2 (ix2 0 q) := by
  rw [addf_apply, matmul2_apply, bias2_apply]

/-- THE STEP'S STORED TILE is the layer's specification over the tile's 512 rows. -/
theorem payload_eq (x : Vec Ideal S512x512 .f32) (w1 : Vec Ideal S512x2048 .f32) (b1 : Vec Ideal S1x2048 .f32)
    (w2 : Vec Ideal S2048x512 .f32) (b2 : Vec Ideal S1x512 .f32) :
    k0_pay1 (F := Ideal) x w1 b1 w2 b2 = ffn x w1 b1 w2 b2 := by
  funext j
  obtain ⟨p, q, rfl⟩ : ∃ (p : Fin 512) (q : Fin 512), j = ix2 p q := ⟨j 0, j 1, eq_ix2 j⟩
  unfold k0_pay1
  refine (out_apply (hidden x w1 b1) w2 b2 p q).trans ?_
  unfold ffn
  refine congrArg (· + b2 (ix2 0 q)) (Finset.sum_congr rfl fun k _ => ?_)
  rw [hidden_apply]

end Cert.ReferenceIdeal.RefValue

end
-- ==== Proof.RefBlocks.lean ====
/-
  From the grid steps to the whole result. The reference runs 16 steps; step t reads rows 512·t … 512·t + 511 of the
  flattened input (the other four operands whole, at every step) and writes the same rows of the result. Here:

  * what the flattening before the steps leaves in the input array, and what each step's blocks are as functions of
    the five arguments (a block's entry sits at block index × block size + its own coordinate on each axis);
  * what step t writes back: rows 512·t … of ONE function of the arguments, the layer's specification over all 8192
    rows — because the layer's entry (r, c) reads row r of the input only;
  * every row r is written by step r / 512, so the result array ends holding the specification;
  * the reshaping after the steps, and the arguments left as they were.
-/
import proofs.«126397_g2000202884625981_pallasbulk_1329_16_alg».proof.Proof.Gen.ReferenceIdeal.Frame
import proofs.«126397_g2000202884625981_pallasbulk_1329_16_alg».proof.Proof.FfnSpec
import proofs.«126397_g2000202884625981_pallasbulk_1329_16_alg».proof.Proof.RefShapes
import proofs.«126397_g2000202884625981_pallasbulk_1329_16_alg».proof.Proof.RefTile
import proofs.«126397_g2000202884625981_pallasbulk_1329_16_alg».proof.Proof.RefPayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open Idealize.ShloMosaic.ValueIdx
open Idealize.ShloMosaic.StableHlo

namespace Cert.ReferenceIdeal.RefValue

open Cert.ReferenceIdeal Cert.ReferenceIdeal.Gen Cert.FfnSpec Cert.FfnShape Cert.FfnTile

variable (m : (ℓ : Loc nD τ sig) → Buf (Elt Ideal) ℓ) (ρ : Dev nD → PrngReg)

theorem hz : (![0, 0] : Fin 2 → Nat) = fun _ => 0 := funext fun a => by fin_cases a <;> rfl

/-- The flattening before the steps leaves the tiled input read as 8192 rows. -/
theorem V_v0 (c : Dev nD) : (Gen.V m c main_v0 : S8192x512.Idx → EReal) = rows (m ((c : Thread nD τ).loc main_arg0)) := by
  show StableHlo.after hostOps0 (fun b => m (c, b)) (Proc.devRef .tc main_v0) = _
  after_results
  rfl

/-- THE RESULT ROWS: the layer's specification over the 8192 flattened rows of the input. -/
def G (c : Dev nD) : S8192x512.Idx → EReal :=
  ffn (rows (m ((c : Thread nD τ).loc main_arg0))) (m ((c : Thread nD τ).loc main_arg1)) (m ((c : Thread nD τ).loc main_arg2))
    (m ((c : Thread nD τ).loc main_arg3)) (m ((c : Thread nD τ).loc main_arg4))

/-- The block indices at step t, decided over the 16 steps: the input's and the result's blocks move down with the
    step, the weights' and biases' blocks stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first weight's block at any step is the whole first weight. -/
theorem iblk1 (c : Dev nD) (t : Fin cfg0.N) : (iblk m c 1 t : Vec Ideal S512x2048 .f32) = m ((c : Thread nD τ).loc main_arg1) := by
  obtain ⟨-, -, e0, e1, -⟩ := idx_facts t
  funext y
  unfold iblk
  rw [View.read_apply]
  show V m c main_arg1 (((cfg0.win 1).blk t).view.emb y) = _
  rw [V_main_arg1]
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 2048 + 1 * (y 1).val = (y 1).val; omega

/-- The first bias's block at any step is the whole first bias. -/
theorem iblk2 (c : Dev nD) (t : Fin cfg0.N) : (iblk m c 2 t : Vec Ideal S1x2048 .f32) = m ((c : Thread nD τ).loc main_arg2) := by
  obtain ⟨-, -, -, -, e0, e1, -⟩ := idx_facts t
  funext y
  unfold iblk
  rw [View.read_apply]
  show V m c main_arg2 (((cfg0.win 2).blk t).view.emb y) = _
  rw [V_main_arg2]
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 2048 + 1 * (y 1).val = (y 1).val; omega

/-- The second weight's block at any step is the whole second weight. -/
theorem iblk3 (c : Dev nD) (t : Fin cfg0.N) : (iblk m c 3 t : Vec Ideal S2048x512 .f32) = m ((c : Thread nD τ).loc main_arg3) := by
  obtain ⟨-, -, -, -, -, -, e0, e1, -⟩ := idx_facts t
  funext y
  unfold iblk
  rw [View.read_apply]
  show V m c main_arg3 (((cfg0.win 3).blk t).view.emb y) = _
  rw [V_main_arg3]
  refine congrArg _ (funext fun a => Fin.ext ?_)
  match a with
  | ⟨0, _⟩ => show win0_3.index t (0 : Fin 2) * 2048 + 1 * (y 0).val = (y 0).val; omega
  | ⟨1, _⟩ => show win0_3.index t (1 : Fin 2) * 512 + 1 * (y 1).val = (y 1).val; omega

/-- The second bias's block at any step is the whole second bias. -/
theorem iblk4 (c : Dev nD) (t : Fin cfg0.N) : (iblk m c 4 t : Vec Ideal S1x512 .f32) = m ((c : Thread nD τ).loc main_arg4) := by
  obtain ⟨-, -, -, -, -, -, -, -, e0, e1, -⟩ := idx_facts t
  funext y
  unfold iblk
  rw [View.read_apply]
  show V m c main_arg4 (((cfg0.win 4).blk t).view.emb y) = _
  rw [V_main_arg4]
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

/-- The input's block at step t holds rows 512·t … 512·t + 511 of the flattened input. -/
theorem iblk0_apply (c : Dev nD) (t : Fin cfg0.N) (p j : Fin 512) (r : Fin 8192) (hr : r.val = 512 * t.val + p.val) :
    (iblk m c 0 t : Vec Ideal S512x512 .f32) (ix2 p j) = rows (m ((c : Thread nD τ).loc main_arg0)) (ix2 r j) := by
  obtain ⟨e0, e1, -⟩ := idx_facts t
  unfold iblk
  rw [View.read_apply]
  show V m c main_v0 (((cfg0.win 0).blk t).view.emb (ix2 p j)) = _
  rw [V_v0]
  refine congrArg _ (funext fun a => Fin.ext ?_)
  match a with
  | ⟨0, _⟩ => show win0_0.index t (0 : Fin 2) * 512 + 1 * p.val = r.val; omega
  | ⟨1, _⟩ => show win0_0.index t (1 : Fin 2) * 512 + 1 * j.val = j.val; omega

/-- WHAT STEP t WRITES BACK is rows 512·t … 512·t + 511 of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz]
  simp only [View.ld_unit_zero (S := S512x512) hz, View.ld_unit_zero (S := S512x2048) hz, View.ld_unit_zero (S := S1x2048) hz,
    View.ld_unit_zero (S := S2048x512) hz, View.ld_unit_zero (S := S1x512) hz]
  rw [payload_eq (iblk m c 0 t) (iblk m c 1 t) (iblk m c 2 t) (iblk m c 3 t) (iblk m c 4 t), iblk1, iblk2, iblk3, iblk4]
  have hN : grid0.N = 16 := N_0
  have ht : t.val < 16 := by have h : t.val < grid0.N := t.isLt; omega
  obtain ⟨-, -, -, -, -, -, -, -, -, -, e0, e1⟩ := idx_facts t
  funext y
  obtain ⟨p, q, rfl⟩ : ∃ (p : Fin 512) (q : Fin 512), y = ix2 p q := ⟨y 0, y 1, eq_ix2 y⟩
  rw [View.read_apply]
  have hp : p.val < 512 := p.isLt
  refine (ffn_of_rows (rows (m ((c : Thread nD τ).loc main_arg0))) (iblk m c 0 t) _ _ _ _ p ⟨512 * t.val + p.val, by omega⟩
    (fun j => iblk0_apply m c t p j _ rfl) q).trans ?_
  unfold G
  refine congrArg _ (funext fun a => Fin.ext ?_)
  match a with
  | ⟨0, _⟩ => show 512 * t.val + p.val = win0_5.index t (0 : Fin 2) * 512 + 1 * p.val; omega
  | ⟨1, _⟩ => show q.val = win0_5.index t (1 : Fin 2) * 512 + 1 * q.val; omega

/-- A row index is in step t's block iff each coordinate is in the block's range on its axis. -/
theorem mem_blk (t : Fin cfg0.N) (i : S8192x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v1).slice (win0_5.rect t)).set ↔ _
  rw [View.set_slice_whole, Rect.mem_set_unit]
  exact Iff.rfl

/-- Row r is written by step r / 512. -/
theorem cover (i : S8192x512.Idx) : ∃ t : Fin cfg0.N, (cfg0.win 5).flush t = true ∧ i ∈ ((cfg0.win 5).blk t).view.set := by
  have hi0 : (i 0).val < 8192 := (i 0).isLt
  have hi1 : (i 1).val < 512 := (i 1).isLt
  have hN : grid0.N = 16 := N_0
  obtain ⟨t, ht⟩ : ∃ t : Fin cfg0.N, t.val = (i 0).val / 512 := ⟨⟨(i 0).val / 512, by show _ < grid0.N; rw [hN]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- THE RESULT ARRAY after the 16 steps holds `G`. -/
theorem final (c : Dev nD) : (dats m 0 c).arrAt 5 cfg0.N = G m c :=
  (dats m 0 c).arrAt_eq_of_cover 5 (G m c) (fun t _ => flushed_eq m c t) cover

/-- The reshaping after the steps hands the result rows back as 16 tiles. -/
theorem tail_v2 (c : Dev nD) :
    (Pipeline.afterTail₀ cfgs (dats m) 0 (V0 m) [hostOps1] c main_v2 : S16x512x512.Idx → EReal) = tiles (G m c) := by
  unfold Pipeline.afterTail₀
  show StableHlo.after hostOps1 _ (Proc.devRef .tc main_v2) = _
  after_results
  unfold tiles
  refine congrArg (fun y => shapeCast (⟨3, ![16, 512, 512]⟩ : Shape) y rows_to_tiles) ?_
  exact (Pipeline.withArrays_arr spec0 launch0.win.arr_inj c _ _ 5).trans (final m c)

/-- THE RUN, READ: from any memory, every execution of the reference ends with the result at the 16 tiles of the
    layer's specification over the flattened input, and the five arguments as they were. -/
theorem run : θ_run Cert.ReferenceIdeal.defs (onTc (τ := τ) (main (F := Ideal))) ⟨m, fun _ => 0, ρ⟩ (fun r => ∀ c : Dev nD,
      r.2.mem ((c.tc : Thread nD τ).loc main_v2)
        = tiles (ffn (rows (m ((c.tc : Thread nD τ).loc main_arg0))) (m ((c.tc : Thread nD τ).loc main_arg1)) (m ((c.tc : Thread nD τ).loc main_arg2))
            (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run Cert.ReferenceIdeal.defs _ _).mono (fun _ h c =>
    ⟨((h c).2 main_v2 (Pipeline.mem_restRefs_of main_v2 (by decide) (by decide))).trans (tail_v2 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.ReferenceIdeal.RefValue

end
-- ==== Proof.lean ====
/-
  The tiled feed-forward kernel against its weight-resident reference, over the extended reals.

  Both programs compute, for each of the 8192 flattened input rows r and each output column c,

      y[r, c] = (∑ k < 2048, relu(∑ j < 512, x[r, j] · w1[j, k] + b1[0, k]) · w2[k, c]) + b2[0, c]

  (Proof/FfnSpec.lean). The reference does so in 16 grid steps of 512 rows with both weights whole. The kernel walks a
  grid of 8 row tiles × 4 runs of 512 hidden units: at run 0 of a row tile it casts the tile into a scratch buffer (a
  change of float format, the identity on the extended reals) and seeds a scratch accumulator with the run's partial
  product plus b2; at runs 1, 2, 3 it adds the run's partial product; at run 3 it copies the accumulator to the output
  block, which is written back then. So the kernel's entry is ((((P0 + b2) + P1) + P2) + P3) with Pf the part of the sum
  over k that run f owns, and the reference's is (P0 + P1 + P2 + P3) + b2 in one sum: equal because addition of extended
  reals is commutative and associative. Nothing is cancelled or distributed, so the inputs' finiteness is never used.

  The frames: the kernel's body is run once per kind of point (first, middle, last run of a row tile), the scratch
  buffers are carried from point to point by the region's invariant, and the program's run follows from the body's
  obligation at every point (Proof/K*Frame.lean, once for the printed kernel and once for its idealization; the two
  texts differ only in the program they speak of). The idealization is the kernel's own text read on the extended reals — no
  operation was replaced — so `preserves` has no conjunct to prove.
-/
import proofs.«126397_g2000202884625981_pallasbulk_1329_16_alg».proof.Defs
import proofs.«126397_g2000202884625981_pallasbulk_1329_16_alg».proof.Proof.Gen.Kernel
import proofs.«126397_g2000202884625981_pallasbulk_1329_16_alg».proof.Proof.Gen.KernelIdeal
import proofs.«126397_g2000202884625981_pallasbulk_1329_16_alg».proof.Proof.Gen.ReferenceIdeal
import proofs.«126397_g2000202884625981_pallasbulk_1329_16_alg».proof.Proof.Gen.ReferenceIdeal.Frame
import proofs.«126397_g2000202884625981_pallasbulk_1329_16_alg».proof.Proof.Gen.Pre_finite_inputs
import proofs.«126397_g2000202884625981_pallasbulk_1329_16_alg».proof.Proof.KbFrame
import proofs.«126397_g2000202884625981_pallasbulk_1329_16_alg».proof.Proof.KiAccum
import proofs.«126397_g2000202884625981_pallasbulk_1329_16_alg».proof.Proof.RefBlocks
import Idealize.ShloMosaic.Adequacy
import Idealize.ShloMosaic.Init

noncomputable section

namespace Cert.Proof

open Idealize.ShloMosaic Idealize.SL.Sem

/-- The printed kernel runs and leaves its arguments unchanged. -/
theorem frame_kernel : Cert.frame_Kernel := fun m ρ _ => Cert.Kernel.Tile.frame m ρ

/-- So does its idealization. -/
theorem frame_kernelIdeal : Cert.frame_KernelIdeal := fun m ρ _ => Cert.KernelIdeal.Tile.frame m ρ

/-- So does the reference. -/
theorem frame_reference : Cert.frame_ReferenceIdeal := fun m ρ _ => Cert.ReferenceIdeal.Gen.frame m ρ

/-- On the extended reals both programs end with the layer's result of their (agreeing) arguments. -/
theorem algebraic : Cert.algebraic_KernelIdeal_ReferenceIdeal := by
  intro m ρ m' ρ' _ hagree
  refine ⟨_, Cert.KernelIdeal.TileValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
